-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x50257 : Shape := ⟨2, ![1024, 50257]⟩
abbrev S50257x128 : Shape := ⟨2, ![50257, 128]⟩
abbrev S128x128 : Shape := ⟨2, ![128, 128]⟩
abbrev S_ : Shape := ⟨0, ![]⟩

class Facts : Prop where
  bcast_S_S1024x50257 : S_.BroadcastsInDim S1024x50257 (![] : Fin 0 → Fin S1024x50257.rank)
  reducesTo_S1024x50257_S_d0_1 : S1024x50257.ReducesTo [0, 1] S_
  h_S_ : 0 < S_.numel
  bcast_S_S50257x128 : S_.BroadcastsInDim S50257x128 (![] : Fin 0 → Fin S50257x128.rank)
  reducesTo_S50257x128_S_d0_1 : S50257x128.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S1024x50257 .f32) (main_arg1 : FVec F S50257x128 .f32) (main_arg2 : FVec F S128x128 .f32) : IVec S_ 1 :=
  let main_v0 : FVec F S1024x50257 .f32 := Host.absf main_arg0
  let main_cst : FVec F S_ .f32 := constant S_ .f32 0x7F800000#32
  let main_v1 : FVec F S1024x50257 .f32 := broadcastInDim S1024x50257 ![] bcast_S_S1024x50257 main_cst
  let main_v2 : IVec S1024x50257 1 := cmpf .olt main_v0 main_v1
  let main_c : IVec S_ 1 := constantI S_ 1 1#1
  let main_v3 : IVec S_ 1 := (fun x v => Host.reduce IntOp.andi x v reducesTo_S1024x50257_S_d0_1 h_S_) main_v2 main_c
  let main_v4 : FVec F S50257x128 .f32 := Host.absf main_arg1
  let main_cst_0 : FVec F S_ .f32 := constant S_ .f32 0x7F800000#32
  let main_v5 : FVec F S50257x128 .f32 := broadcastInDim S50257x128 ![] bcast_S_S50257x128 main_cst_0
  let main_v6 : IVec S50257x128 1 := cmpf .olt main_v4 main_v5
  let main_c_1 : IVec S_ 1 := constantI S_ 1 1#1
  let main_v7 : IVec S_ 1 := (fun x v => Host.reduce IntOp.andi x v reducesTo_S50257x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S1024x50257 : Shape := ⟨2, ![1024, 50257]⟩
abbrev S50257x128 : Shape := ⟨2, ![50257, 128]⟩
abbrev S128x128 : Shape := ⟨2, ![128, 128]⟩
abbrev S1024x128 : Shape := ⟨2, ![1024, 128]⟩
abbrev S64x50257 : Shape := ⟨2, ![64, 50257]⟩
abbrev S64x128 : Shape := ⟨2, ![64, 128]⟩
abbrev S32x128 : Shape := ⟨2, ![32, 128]⟩
abbrev S32x50257 : Shape := ⟨2, ![32, 50257]⟩
abbrev S32 : Shape := ⟨1, ![32]⟩
abbrev S32x1 : Shape := ⟨2, ![32, 1]⟩

abbrev nBuf : Space → Nat
  | .hbm => 5
  | .vmem => 11
  | .smem => 0
  | _ => 0

abbrev bufTy : (tb : Table) → Fin (tcTables nBuf tb) → BufTy
  | .hbm, ⟨0, _⟩ => ⟨S1024x50257, .f32⟩
  | .hbm, ⟨1, _⟩ => ⟨S50257x128, .f32⟩
  | .hbm, ⟨2, _⟩ => ⟨S128x128, .f32⟩
  | .hbm, ⟨3, _⟩ => ⟨S1024x128, .f32⟩
  | .hbm, ⟨4, _⟩ => ⟨S1024x50257, .f32⟩
  | .local _ .vmem, ⟨0, _⟩ => ⟨S64x50257, .f32⟩
  | .local _ .vmem, ⟨1, _⟩ => ⟨S64x50257, .f32⟩
  | .local _ .vmem, ⟨2, _⟩ => ⟨S50257x128, .f32⟩
  | .local _ .vmem, ⟨3, _⟩ => ⟨S64x128, .f32⟩
  | .local _ .vmem, ⟨4, _⟩ => ⟨S64x128, .f32⟩
  | .local _ .vmem, ⟨5, _⟩ => ⟨S32x128, .f32⟩
  | .local _ .vmem, ⟨6, _⟩ => ⟨S32x128, .f32⟩
  | .local _ .vmem, ⟨7, _⟩ => ⟨S50257x128, .f32⟩
  | .local _ .vmem, ⟨8, _⟩ => ⟨S128x128, .f32⟩
  | .local _ .vmem, ⟨9, _⟩ => ⟨S32x50257, .f32⟩
  | .local _ .vmem, ⟨10, _⟩ => ⟨S32x50257, .f32⟩
  | _, _ => ⟨S1024x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50257x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S50257x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S32x50257 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S64x50257_S64x50257_0_0 : ∀ a, (![0, 0] : Fin 2 → Nat) a + S64x50257.size a ≤ S64x50257.size a
  h_S64x50257 : 0 < S64x50257.numel
  inb_S50257x128_S50257x128_0_0 : ∀ a, (![0, 0] : Fin 2 → Nat) a + S50257x128.size a ≤ S50257x128.size a
  h_S50257x128 : 0 < S50257x128.numel
  inb_S64x128_S64x128_0_0 : ∀ a, (![0, 0] : Fin 2 → Nat) a + S64x128.size a ≤ S64x128.size a
  h_S64x128 : 0 < S64x128.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128x128_S128x128_0_0 : ∀ a, (![0, 0] : Fin 2 → Nat) a + S128x128.size a ≤ S128x128.size a
  h_S128x128 : 0 < S128x128.numel
  inb_S32x50257_S32x50257_0_0 : ∀ a, (![0, 0] : Fin 2 → Nat) a + S32x50257.size a ≤ S32x50257.size a
  h_S32x50257 : 0 < S32x50257.numel
  shapeCasts_S32x50257_S32x50257 : S32x50257.ShapeCasts S32x50257
  reduces_S32x50257_S32 : S32x50257.Reduces [1] S32
  shapeCasts_S32_S32x1 : S32.ShapeCasts S32x1
  broadcasts_S32x1_S32x50257 : S32x1.Broadcasts S32x50257
  dot_S64x50257_S50257x128_S64x128_1_0_0_1_n_n_wf : DotDims.WF S64x50257 S50257x128 S64x128 [1] [0] [0] [1] [] []
  dot_S32x128_S128x128_S32x128_1_0_0_1_n_n_wf : DotDims.WF S32x128 S128x128 S32x128 [1] [0] [0] [1] [] []
  dot_S32x128_S50257x128_S32x50257_1_1_0_0_n_n_wf : DotDims.WF S32x128 S50257x128 S32x50257 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x50257.size a ≤ S1024x50257.size a
  hwx0_0 : ∀ i : grid0.Coords, EltTy.bits .f32 = 32 ∨ (Rect.block (s := S1024x50257) S64x50257.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50257x128.size a ≤ S50257x128.size a
  hwx0_1 : ∀ i : grid0.Coords, EltTy.bits .f32 = 32 ∨ (Rect.block (s := S50257x128) S50257x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S1024x128.size a
  hwx0_2 : ∀ i : grid0.Coords, EltTy.bits .f32 = 32 ∨ (Rect.block (s := S1024x128) S64x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x128.size a ≤ S1024x128.size a
  hwx1_0 : ∀ i : grid1.Coords, EltTy.bits .f32 = 32 ∨ (Rect.block (s := S1024x128) S32x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S50257x128.size a ≤ S50257x128.size a
  hwx1_1 : ∀ i : grid1.Coords, EltTy.bits .f32 = 32 ∨ (Rect.block (s := S50257x128) S50257x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x50257.size a ≤ S1024x50257.size a
  hwx1_3 : ∀ i : grid1.Coords, EltTy.bits .f32 = 32 ∨ (Rect.block (s := S1024x50257) S32x50257.size (cc1_transform_3 i) (hinb1_3 i)).WholeWords (EltTy.packing .f32)

variable [Facts₀]

def dot_S64x50257_S50257x128_S64x128_1_0_0_1_n_n : DotDims S64x50257 S50257x128 S64x128 where
  lhsContracting := [1]
  rhsContracting := [0]
  lhsNonContracting := [0]
  rhsNonContracting := [1]
  lhsBatch := []
  rhsBatch := []
  wf := dot_S64x50257_S50257x128_S64x128_1_0_0_1_n_n_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S32x128_S50257x128_S32x50257_1_1_0_0_n_n : DotDims S32x128 S50257x128 S32x50257 where
  lhsContracting := [1]
  rhsContracting := [1]
  lhsNonContracting := [0]
  rhsNonContracting := [0]
  lhsBatch := []
  rhsBatch := []
  wf := dot_S32x128_S50257x128_S32x50257_1_1_0_0_n_n_wf

abbrev win0_0 : Pipeline.Window sig grid0 :=
  Pipeline.Window.ofSpec (Memref.whole main_arg0) S64x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S50257x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S50257x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S32x50257.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x50257 : Shape := ⟨2, ![1024, 50257]⟩
abbrev S50257x128 : Shape := ⟨2, ![50257, 128]⟩
abbrev S128x128 : Shape := ⟨2, ![128, 128]⟩
abbrev S1024x128 : Shape := ⟨2, ![1024, 128]⟩
abbrev S128x50257 : Shape := ⟨2, ![128, 50257]⟩
abbrev S_ : Shape := ⟨0, ![]⟩
abbrev S1024 : Shape := ⟨1, ![1024]⟩
abbrev S1024x1 : Shape := ⟨2, ![1024, 1]⟩

abbrev nBuf : Space → Nat
  | .hbm => 22
  | .vmem => 0
  | .smem => 0
  | _ => 0

abbrev bufTy : (tb : Table) → Fin (tcTables nBuf tb) → BufTy
  | .hbm, ⟨0, _⟩ => ⟨S1024x50257, .f32⟩
  | .hbm, ⟨1, _⟩ => ⟨S50257x128, .f32⟩
  | .hbm, ⟨2, _⟩ => ⟨S128x128, .f32⟩
  | .hbm, ⟨3, _⟩ => ⟨S1024x128, .f32⟩
  | .hbm, ⟨4, _⟩ => ⟨S1024x128, .f32⟩
  | .hbm, ⟨5, _⟩ => ⟨S128x50257, .f32⟩
  | .hbm, ⟨6, _⟩ => ⟨S1024x50257, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1024x1, .f32⟩
  | .hbm, ⟨13, _⟩ => ⟨S1024x50257, .f32⟩
  | .hbm, ⟨14, _⟩ => ⟨S1024x50257, .f32⟩
  | .hbm, ⟨15, _⟩ => ⟨S1024x50257, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S1024x1, .f32⟩
  | .hbm, ⟨20, _⟩ => ⟨S1024x50257, .f32⟩
  | .hbm, ⟨21, _⟩ => ⟨S1024x50257, .f32⟩
  | _, _ => ⟨S1024x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v4 : Ref sig .tc := ⟨.hbm, 21, rfl⟩

abbrev nD : Nat := 1
abbrev τ : Topo := Topo.v7x

variable {F : FTy → Type} [FloatOps F]

class Facts₀ : Prop where
  transposes_S50257x128_S128x50257_1_0 : S50257x128.Transposes [1, 0] S128x50257
  reducesTo_S1024x50257_S1024_d1 : S1024x50257.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x50257_0_1 : S1024x1.BroadcastsInDim S1024x50257 (![0, 1] : Fin 2 → Fin S1024x50257.rank)
  dot_S1024x50257_S50257x128_S1024x128_1_0_0_1_n_n_wf : DotDims.WF S1024x50257 S50257x128 S1024x128 [1] [0] [0] [1] [] []
  dot_S1024x128_S128x128_S1024x128_1_0_0_1_n_n_wf : DotDims.WF S1024x128 S128x128 S1024x128 [1] [0] [0] [1] [] []
  dot_S1024x128_S128x50257_S1024x50257_1_0_0_1_n_n_wf : DotDims.WF S1024x128 S128x50257 S1024x50257 [1] [0] [0] [1] [] []

variable [Facts₀]

def dot_S1024x50257_S50257x128_S1024x128_1_0_0_1_n_n : DotDims S1024x50257 S50257x128 S1024x128 where
  lhsContracting := [1]
  rhsContracting := [0]
  lhsNonContracting := [0]
  rhsNonContracting := [1]
  lhsBatch := []
  rhsBatch := []
  wf := dot_S1024x50257_S50257x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x50257_S1024x50257_1_0_0_1_n_n : DotDims S1024x128 S128x50257 S1024x50257 where
  lhsContracting := [1]
  rhsContracting := [0]
  lhsNonContracting := [0]
  rhsNonContracting := [1]
  lhsBatch := []
  rhsBatch := []
  wf := dot_S1024x128_S128x50257_S1024x50257_1_0_0_1_n_n_wf

class Facts : Prop extends Facts₀ where

variable [Facts]
-- ==== Proof.Spec.lean ====
/-
  The mathematics of the claim, free of any program: a batch of rows `xs` is embedded (`xs · E`), mapped through a
  metric (`· M`), scored against every embedding (`· Eᵀ`), and each row of scores is normalised by the logarithm of its
  softmax. Everything is written one ROW at a time, so that the same functions describe a block of rows and the whole batch.

  The two programs spell the last step differently: one subtracts the row maximum `m` and then the logarithm `ℓ` of the
  sum of the shifted exponentials, `(s − m) − ℓ`; the other subtracts their sum, `s − (m + ℓ)`. Over the extended reals the
  two agree as soon as `m` is a real number (`sub_add_eq`): negation distributes over `m + ℓ` when one summand is finite,
  and addition is associative everywhere.
-/
import Idealize.ShloMosaic.PureOps.Ideal
import Idealize.ShloMosaic.PureOps.Ideal.Laws
import Idealize.ShloMosaic.Lib.ValueIdx

noncomputable section

open scoped BigOperators

namespace Cert.LogSoftmaxScores

open Idealize.ShloMosaic Idealize.ShloMosaic.ValueIdx

/-- The embedding table `E : [50257, 128]` and the metric `M : [128, 128]`, as arrays of extended reals. -/
abbrev EmbTable := (⟨2, ![50257, 128]⟩ : Shape).Idx → EReal
abbrev Metric := (⟨2, ![128, 128]⟩ : Shape).Idx → EReal

/-- One row of `xs · E`: entry `l` is `∑ v, x v · E[v, l]`. -/
def embedRow (x : Fin 50257 → EReal) (E : EmbTable) (l : Fin 128) : EReal :=
  ∑ v : Fin 50257, x v * E (ix2 v l)

/-- One row of `h · M`: entry `k` is `∑ l, h l · M[l, k]`. -/
def metricRow (h : Fin 128 → EReal) (M : Metric) (k : Fin 128) : EReal :=
  ∑ l : Fin 128, h l * M (ix2 l k)

/-- One row of scores `(h · M) · Eᵀ`: entry `j` is `∑ k, (h · M) k · E[j, k]`. -/
def scoreRow (h : Fin 128 → EReal) (E : EmbTable) (M : Metric) (j : Fin 50257) : EReal :=
  ∑ k : Fin 128, metricRow h M k * E (ix2 j k)

/-- The value both programs start a maximum from: the single-precision pattern of `−∞`. -/
abbrev negInf : EReal := Ideal.ofBits .f32 0xFF800000#32

/-- The maximum of a row of scores, folded from `−∞`. -/
def rowMax (s : Fin 50257 → EReal) : EReal := (Finset.univ : Finset (Fin 50257)).fold max negInf s

/-- The sum of the exponentials of a row shifted by its maximum. -/
def sumExp (s : Fin 50257 → EReal) : EReal := ∑ j : Fin 50257, Ideal.exp (s j - rowMax s)

/-- The log-softmax of a row with maximum and log-sum subtracted TOGETHER: `s j − (m + ℓ)`. -/
def logSoftmaxJoint (s : Fin 50257 → EReal) (j : Fin 50257) : EReal := s j - (rowMax s + Ideal.log (sumExp s))

/-- The log-softmax of a row with maximum and log-sum subtracted IN TURN: `(s j − m) − ℓ`. -/
def logSoftmaxInTurn (s : Fin 50257 → EReal) (j : Fin 50257) : EReal := s j - rowMax s - Ideal.log (sumExp s)

/-- Over the extended reals `a − (m + ℓ) = (a − m) − ℓ` whenever `m` is neither infinity. -/
theorem sub_add_eq (a m l : EReal) (hb : m ≠ ⊥) (ht : m ≠ ⊤) : a - (m + l) = a - m - l := by
  rw [sub_eq_add_neg, EReal.neg_add (Or.inl hb) (Or.inl ht), sub_eq_add_neg, sub_eq_add_neg, sub_eq_add_neg, add_assoc]

/-- So the two spellings of the log-softmax agree on a row whose maximum is a real number. -/
theorem logSoftmaxJoint_eq_inTurn (s : Fin 50257 → EReal) (hb : rowMax s ≠ ⊥) (ht : rowMax s ≠ ⊤) (j : Fin 50257) :
    logSoftmaxJoint s j = logSoftmaxInTurn s j :=
  sub_add_eq _ _ _ hb ht

/-- Folding the maximum from `−∞` and then taking the maximum with `−∞` again changes nothing. -/
theorem max_negInf_rowMax (s : Fin 50257 → EReal) : max negInf (rowMax s) = rowMax s :=
  max_eq_right (by unfold rowMax; exact (Finset.le_fold_max negInf).mpr (Or.inl le_rfl))

/-- The whole batch embedded: entry `(p, l)` of `xs · E`. -/
def embedded (xs : (⟨2, ![1024, 50257]⟩ : Shape).Idx → EReal) (E : EmbTable) : (⟨2, ![1024, 128]⟩ : Shape).Idx → EReal :=
  fun i => embedRow (fun v => xs (ix2 (i 0) v)) E (i 1)

/-- An entry of the embedded batch named by its coordinates. -/
theorem embedded_apply (xs : (⟨2, ![1024, 50257]⟩ : Shape).Idx → EReal) (E : EmbTable) (i : (⟨2, ![1024, 128]⟩ : Shape).Idx)
    (p : Fin 1024) (l : Fin 128) (h0 : (i 0).val = p.val) (h1 : (i 1).val = l.val) :
    embedded xs E i = embedRow (fun v => xs (ix2 p v)) E l := by
  have e : i = ix2 p l := funext fun a => Fin.ext (by
    match a with
    | ⟨0, _⟩ => exact h0
    | ⟨1, _⟩ => exact h1)
  subst e
  rfl

/-- The normalised scores of a batch `h` of embedded rows: entry `(p, j)` is the log-softmax, at `j`, of the scores of row `p`. -/
def normalized (h : (⟨2, ![1024, 128]⟩ : Shape).Idx → EReal) (E : EmbTable) (M : Metric) :
    (⟨2, ![1024, 50257]⟩ : Shape).Idx → EReal :=
  fun i => logSoftmaxJoint (scoreRow (fun l => h (ix2 (i 0) l)) E M) (i 1)

/-- An entry of the normalised scores named by its coordinates. -/
theorem normalized_apply (h : (⟨2, ![1024, 128]⟩ : Shape).Idx → EReal) (E : EmbTable) (M : Metric)
    (i : (⟨2, ![1024, 50257]⟩ : Shape).Idx) (p : Fin 1024) (j : Fin 50257) (h0 : (i 0).val = p.val) (h1 : (i 1).val = j.val) :
    normalized h E M i = logSoftmaxJoint (scoreRow (fun l => h (ix2 p l)) E M) j := by
  have e : i = ix2 p j := funext fun a => Fin.ext (by
    match a with
    | ⟨0, _⟩ => exact h0
    | ⟨1, _⟩ => exact h1)
  subst e
  rfl

/-- The whole computation: the normalised scores of the embedded batch. -/
def result (xs : (⟨2, ![1024, 50257]⟩ : Shape).Idx → EReal) (E : EmbTable) (M : Metric) :
    (⟨2, ![1024, 50257]⟩ : Shape).Idx → EReal :=
  normalized (embedded xs E) E M

end Cert.LogSoftmaxScores

end
-- ==== Proof.EmbedPass.lean ====
/-
  The first pass of the kernel: the batch is cut into 16 blocks of 64 rows, and the block of rows `64 t … 64 t + 63` of
  `xs · E` is written by grid point `t`. Entry `(r, l)` of what point `t` writes is `∑ v, xs[64 t + r, v] · E[v, l]`: the
  contraction of a matrix product into a zero accumulator is a plain sum over the contracted coordinate, the block of `xs`
  the point reads sits at rows `64 t + r`, and the table is read whole. The blocks tile the `[1024, 128]` array, so after
  the pass the array holds `xs · E`, row by row.
-/
import proofs.«111833_j40097814675558_2_alg».proof.Proof.Gen.KernelIdeal.Frame
import proofs.«111833_j40097814675558_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.EmbedPass

open Idealize.ShloMosaic Idealize.ShloMosaic.TcCoe Idealize.SL.Sem Idealize.ShloMosaic.ValueIdx
open Idealize.ShloMosaic.Pipeline (Dat)
open Cert.KernelIdeal Cert.KernelIdeal.Gen Cert.LogSoftmaxScores

theorem hz : (![0, 0] : Fin 2 → Nat) = fun _ => 0 := funext fun a => by fin_cases a <;> rfl

/-! ## The product of a block of rows with the table, at an entry -/

abbrev D0 := dot_S64x50257_S50257x128_S64x128_1_0_0_1_n_n

theorem lhs0_0 (i : S64x128.Idx) (q : D0.contr.Idx) : (D0.lhsIdx i q 0).val = (i 0).val := by
  unfold DotDims.lhsIdx
  rw [dif_neg (show ¬(0 : Fin S64x50257.rank) ∈ D0.lhsBatch by decide), dif_pos (show (0 : Fin S64x50257.rank) ∈ D0.lhsNonContracting by decide)]
  rfl
theorem lhs0_1 (i : S64x128.Idx) (q : D0.contr.Idx) : (D0.lhsIdx i q 1).val = (q ⟨0, by decide⟩).val :=
  D0.lhsIdx_val_of_single rfl i q
theorem rhs0_0 (i : S64x128.Idx) (q : D0.contr.Idx) : (D0.rhsIdx i q 0).val = (q ⟨0, by decide⟩).val :=
  D0.rhsIdx_val_of_single rfl i q
theorem rhs0_1 (i : S64x128.Idx) (q : D0.contr.Idx) : (D0.rhsIdx i q 1).val = (i 1).val := by
  unfold DotDims.rhsIdx
  rw [dif_neg (show ¬(1 : Fin S50257x128.rank) ∈ D0.rhsBatch by decide), dif_pos (show (1 : Fin S50257x128.rank) ∈ D0.rhsNonContracting by decide)]
  rfl

/-- Entry `(r, l)` of the block the body stores: row `r` of the loaded block of `xs` against column `l` of the table. -/
theorem block_product_apply (x0 : Vec Ideal S64x50257 .f32) (x1 : Vec Ideal S50257x128 .f32) (r : Fin 64) (l : Fin 128) :
    k0_pay1 (F := Ideal) x0 x1 (ix2 r l) = ∑ v : Fin 50257, x0 (ix2 r v) * x1 (ix2 v l) := by
  unfold k0_pay1
  refine (Ideal.matmul_constant_zero_apply D0 (some .fp32) x0 x1 (ix2 r l)).trans ?_
  rw [← Equiv.sum_comp (contrEquiv1 D0 50257 rfl rfl).symm]
  refine Finset.sum_congr rfl fun k _ => ?_
  have hk := contrEquiv1_symm_val D0 50257 rfl rfl k
  have el : D0.lhsIdx (ix2 r l) ((contrEquiv1 D0 50257 rfl rfl).symm k) = ix2 r k := funext fun a => Fin.ext (by
    match a with
    | ⟨0, _⟩ => exact lhs0_0 _ _
    | ⟨1, _⟩ => exact (lhs0_1 _ _).trans hk)
  have er : D0.rhsIdx (ix2 r l) ((contrEquiv1 D0 50257 rfl rfl).symm k) = ix2 k l := funext fun a => Fin.ext (by
    match a with
    | ⟨0, _⟩ => exact (rhs0_0 _ _).trans hk
    | ⟨1, _⟩ => exact rhs0_1 _ _)
  rw [el, er]

/-- The same entry when the loaded block's row `r` is row `p` of the whole batch and the table is read whole. -/
theorem block_product_eq (x0 : Vec Ideal S64x50257 .f32) (x1 : Vec Ideal S50257x128 .f32)
    (xs : S1024x50257.Idx → EReal) (E : EmbTable) (r : Fin 64) (l : Fin 128) (p : Fin 1024)
    (h0 : ∀ v : Fin 50257, x0 (ix2 r v) = xs (ix2 p v)) (h1 : ∀ v : Fin 50257, x1 (ix2 v l) = E (ix2 v l)) :
    k0_pay1 (F := Ideal) x0 x1 (ix2 r l) = embedRow (fun v => xs (ix2 p v)) E l := by
  rw [block_product_apply]
  unfold embedRow
  exact Finset.sum_congr rfl fun v _ => by rw [h0 v, h1 v]

/-! ## From the blocks to the array -/

section Blocks

variable (V : (c : Dev nD) → (b : Ref sig .tc) → Buf (Elt Ideal) ((c : Thread nD τ).loc b))

/-- Where the printed index maps put each window's block at point `t`: the rows of `xs` and of the output move with
    `t`, the table stays; decided once over the sixteen points. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the embedded batch. -/
theorem flushed_eq (c : Dev nD) (t : Fin cfg0.N) :
    (dat0 V c).flushed 2 t
      = ((cfg0.win 2).blk t).view.read (Elt Ideal) (embedded (V c main_arg0) (V c main_arg1)) := by
  show (cfg0.win 2).cut (grid0.coords t) ((dat0 V c).after 2 t) = _
  rw [after0_2]
  unfold out0_2
  rw [View.canon_unit_zero hz]
  simp only [View.ld_unit_zero (S := S64x50257) hz, View.ld_unit_zero (S := S50257x128) hz]
  obtain ⟨e00, e01, e10, e11, e20, e21⟩ := index_facts t
  have ht : t.val < 16 := Nat.lt_of_lt_of_eq t.isLt N_0
  funext y
  obtain ⟨r, l, rfl⟩ : ∃ (r : Fin 64) (l : Fin 128), y = ix2 r l := ⟨y 0, y 1, eq_ix2 y⟩
  have hr : r.val < 64 := r.isLt
  rw [View.read_apply, cast_eq]
  rw [embedded_apply (V c main_arg0) (V c main_arg1) (((cfg0.win 2).blk t).view.emb (ix2 r l))
    ⟨64 * t.val + r.val, by omega⟩ l
    (by show win0_2.index t (0 : Fin 2) * 64 + 1 * r.val = 64 * t.val + r.val; omega)
    (by show win0_2.index t (1 : Fin 2) * 128 + 1 * l.val = l.val; omega)]
  refine block_product_eq (iblk0 V c 0 t) (iblk0 V c 1 t) (V c main_arg0) (V c main_arg1) r l
    ⟨64 * t.val + r.val, by omega⟩ (fun v => ?_) (fun v => ?_)
  · have e : ((cfg0.win 0).blk t).view.emb (ix2 r v) = ix2 (⟨64 * t.val + r.val, by omega⟩ : Fin 1024) v := by
      funext a; apply Fin.ext
      match a with
      | ⟨0, _⟩ => show win0_0.index t (0 : Fin 2) * 64 + 1 * r.val = 64 * t.val + r.val; omega
      | ⟨1, _⟩ => show win0_0.index t (1 : Fin 2) * 50257 + 1 * v.val = v.val; omega
    show V c main_arg0 (((cfg0.win 0).blk t).view.emb (ix2 r v)) = _
    rw [e]
  · have e : ((cfg0.win 1).blk t).view.emb (ix2 v l) = ix2 v l := by
      funext a; apply Fin.ext
      match a with
      | ⟨0, _⟩ => show win0_1.index t (0 : Fin 2) * 50257 + 1 * v.val = v.val; omega
      | ⟨1, _⟩ => show win0_1.index t (1 : Fin 2) * 128 + 1 * l.val = l.val; omega
    show V c main_arg1 (((cfg0.win 1).blk t).view.emb (ix2 v l)) = _
    rw [e]

/-- An index of the `[1024, 128]` array is in point `t`'s block iff each coordinate is in the block's range. -/
theorem mem_blk (t : Fin cfg0.N) (i : S1024x128.Idx) :
    i ∈ ((cfg0.win 2).blk t).view.set ↔ ∀ a : Fin 2, win0_2.index t a * S64x128.size a ≤ (i a).val ∧ (i a).val < win0_2.index t a * S64x128.size a + S64x128.size a := by
  show i ∈ ((View.whole main_v0).slice (win0_2.rect t)).set ↔ _
  rw [View.set_slice_whole, Rect.mem_set_unit]
  exact Iff.rfl

/-- Row `p` lies in the block of point `p / 64`: the sixteen blocks tile the array. -/
theorem covered (i : S1024x128.Idx) : ∃ t : Fin cfg0.N, (cfg0.win 2).flush t = true ∧ i ∈ ((cfg0.win 2).blk t).view.set := by
  have hi0 : (i 0).val < 1024 := (i 0).isLt
  have hi1 : (i 1).val < 128 := (i 1).isLt
  have hN : cfg0.N = 16 := N_0
  refine ⟨⟨(i 0).val / 64, by rw [hN]; omega⟩, flush0_2 _, ?_⟩
  obtain ⟨-, -, -, -, e20, e21⟩ := index_facts ⟨(i 0).val / 64, by rw [hN]; omega⟩
  rw [mem_blk]
  intro a
  match a with
  | ⟨0, _⟩ =>
    show win0_2.index _ (0 : Fin 2) * 64 ≤ (i 0).val ∧ (i 0).val < win0_2.index _ (0 : Fin 2) * 64 + 64
    rw [e20]; show (i 0).val / 64 * 64 ≤ (i 0).val ∧ (i 0).val < (i 0).val / 64 * 64 + 64; omega
  | ⟨1, _⟩ =>
    show win0_2.index _ (1 : Fin 2) * 128 ≤ (i 1).val ∧ (i 1).val < win0_2.index _ (1 : Fin 2) * 128 + 128
    rw [e21]; omega

/-- After the first pass the `[1024, 128]` array holds `xs · E` of the arrays the pass found. -/
theorem final (c : Dev nD) : (dat0 V c).arrAt 2 cfg0.N = embedded (V c main_arg0) (V c main_arg1) :=
  (dat0 V c).arrAt_eq_of_cover 2 (embedded (V c main_arg0) (V c main_arg1)) (fun t _ => flushed_eq V c t) (covered)

end Blocks

end Cert.KernelIdeal.EmbedPass

end
-- ==== Proof.ScorePass.lean ====
/-
  The second pass of the kernel, at one grid point: from a block of 32 embedded rows it forms the block's scores, stores
  them into the output block, reads them back three times, and overwrites them with their log-softmax.

  What the block buffer holds after the body is therefore the LAST store's value, and each of its three loads reads what
  the FIRST store left: the last value as a function of the scores, the scores as a function of the loaded blocks.
-/
import proofs.«111833_j40097814675558_2_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

noncomputable section

namespace Cert.KernelIdeal.ScorePass

open Idealize.ShloMosaic Idealize.ShloMosaic.TcCoe Idealize.SL.Sem Idealize.ShloMosaic.ValueIdx Idealize.ShloMosaic.Tactic
open Cert.KernelIdeal Cert.KernelIdeal.Gen

theorem hz : (![0, 0] : Fin 2 → Nat) = fun _ => 0 := funext fun a => by fin_cases a <;> rfl

/-! ## What the body leaves in the block buffer, as a value -/

section Body

variable {F : FTy → Type} [FloatOps F]

/-- After the body the output block holds the last store's value computed from the first store's: the scores of the
    loaded blocks, read back by each of the three loads. -/
theorem block_left (c : Dev nD) (i : grid1.Coords) (a1 : Memref sig .tc .vmem S32x128 .f32) (h1 : a1.IsWhole)
    (a2 : Memref sig .tc .vmem S50257x128 .f32) (h2 : a2.IsWhole) (a3 : Memref sig .tc .vmem S128x128 .f32) (h3 : a3.IsWhole)
    (a4 : Memref sig .tc .vmem S32x50257 .f32) (h4 : a4.IsWhole)
    (x0 : Vec F S32x128 .f32) (x1 : Vec F S50257x128 .f32) (x2 : Vec F S128x128 .f32) :
    out1_A_3 c i a1 h1 a2 h2 a3 h3 a4 h4 x0 x1 x2
      = k1_pay2 (k1_pay1 x0 x1 x2) (k1_pay1 x0 x1 x2) (k1_pay1 x0 x1 x2) := by
  unfold out1_A_3
  rw [View.read_writes_eq_canon _ _ _ (cover1_A_3 c i a1 h1 a2 h2 a3 h3 a4 h4 x0 x1 x2)]
  unfold kernelRun1_A
  dsimp only
  sl_unfold_words
  rw [View.canon_cons_unit_zero (S := S32x50257) hz]
  simp only [View.readCov_unit_zero (S := S32x50257) _ hz, View.readAt_eq_ld, h1.read_unread, h2.read_unread, h3.read_unread,
    View.ld_unit_zero (S := S32x128) hz, View.ld_unit_zero (S := S50257x128) hz, View.ld_unit_zero (S := S128x128) hz]

end Body

end Cert.KernelIdeal.ScorePass

end
-- ==== Proof.LibRowSums.lean ====
/-
  A sum along the rows of a matrix, read at a row.

  A kernel that reduces a `[a, b]` block along its second axis (a per-row sum: the numerator of a row mean, of a row
  variance, of a row norm) gets an `[a]` vector whose entry `p` is the sum over `k` of the block at `(p, k)`. The lemma
  says so for any extents, with the indices written by coordinates, for a single-precision sum started from the zero
  word.
-/
import Idealize.ShloMosaic.PureOps.Ideal.Laws
import Idealize.ShloMosaic.Lib.ValueIdx

noncomputable section

open scoped BigOperators

namespace Cert.RowSums

open Idealize.ShloMosaic Idealize.ShloMosaic.ValueIdx

/-- An `[a, b]` array of single-precision values summed along its second axis into `[a]`, starting from the zero word,
    reads at `p` the sum over `k : Fin b` of the array at `(p, k)`. The hypothesis on the start word is typed as a printed
    program spells its proof (the word equal to itself). -/
theorem multiReduction_add_rows_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (funext fun c => Fin.ext (by
    match c with
    | ⟨0, _⟩ => rfl
    | ⟨1, _⟩ => rfl))

end Cert.RowSums

end
-- ==== Proof.LibRowMax.lean ====
/-
  A maximum along the rows of a matrix, read at a row.

  A kernel that reduces an `[a, b]` block along its second axis with `max` (the row maximum a softmax subtracts before it
  exponentiates) gets an `[a]` vector whose entry `p` is the maximum, folded from the start value, of the block's entries
  `(p, k)` over `k`. The lemma says so for any extents, with the indices written by coordinates, for a single-precision
  maximum started from the pattern of `−∞`.
-/
import Idealize.ShloMosaic.PureOps.Ideal.Laws
import Idealize.ShloMosaic.Lib.ValueIdx

noncomputable section

namespace Cert.RowMax

open Idealize.ShloMosaic Idealize.ShloMosaic.ValueIdx

/-- An `[a, b]` array of single-precision values reduced along its second axis by `max` into `[a]`, starting from the
    pattern of `−∞`, reads at `p` the fold of `max`, from that pattern's value, over `k : Fin b` of the array at `(p, k)`.
    The hypothesis on the start word is typed as a printed program spells its proof (the word equal to itself). -/
theorem multiReduction_max_rows_apply {a b : ℕ} (v : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun k => v (ix2 p k)) := by
  refine (Ideal.multiReduction_maximumf_single v 0xFF800000#32 h hφ hacc (ix1 p)).trans ?_
  refine congrArg (fun f => (Finset.univ : Finset (Fin b)).fold max (Ideal.ofBits .f32 0xFF800000#32) f) ?_
  funext k
  exact congrArg v (funext fun c => Fin.ext (by
    match c with
    | ⟨0, _⟩ => rfl
    | ⟨1, _⟩ => rfl))

end Cert.RowMax

end
-- ==== Proof.LibColumnLayouts.lean ====
/-
  Casts and broadcasts through a TRAILING unit axis, read at an index written by coordinates.

  A reduction that keeps its dimension, or a per-row scalar spread along a row, goes through shapes with a unit axis
  at the END: `[a] → [a, 1] → [a, b]` and `[a, b] → [a, b, 1] → [a, b, c]`. Each lemma below says which entry of the
  operand a cast or broadcast of that family reads, for any extents; the last one is a `[1, 1, c]` row spread over
  both leading axes. All are instances of the library's general reading of a shape cast (same row-major position)
  and of a broadcast (the operand at the trailing coordinates, `0` on its unit axes).
-/
import Idealize.ShloMosaic.Lib.Pipeline.Value
import Idealize.ShloMosaic.Lib.ValueIdx

noncomputable section

namespace Cert.ColumnLayouts

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, s, k)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- A `[1, 1, c]` row broadcast to `[a, b, c]` reads, at `(p, s, k)`, the row's entry `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.ColumnLayouts

end
-- ==== Proof.ScoreReads.lean ====
/-
  The arithmetic of the kernel's second pass at one grid point, read entry by entry: the first value it stores is the
  block's scores `(h · M) · Eᵀ` (two matrix products into zero accumulators, each a plain sum over its contracted
  coordinate; the table is contracted along its SECOND axis), and the last is `s − (m + ℓ)`, with `m` the row maximum folded
  from `−∞` and `ℓ` the logarithm of the row's sum of `exp (s − m)`, both kept as a column and spread back along the row.
-/
import proofs.«111833_j40097814675558_2_alg».proof.Proof.Gen.KernelIdeal.Skeleton
import proofs.«111833_j40097814675558_2_alg».proof.Proof.Spec
import proofs.«111833_j40097814675558_2_alg».proof.Proof.LibRowSums
import proofs.«111833_j40097814675558_2_alg».proof.Proof.LibRowMax
import proofs.«111833_j40097814675558_2_alg».proof.Proof.LibColumnLayouts
import Idealize.ShloMosaic.Lib.Pipeline.Value
import Idealize.ShloMosaic.Lib.ValueIdx
import Idealize.ShloMosaic.PureOps.Ideal.Laws

noncomputable section

open scoped BigOperators

namespace Cert.KernelIdeal.ScoreReads

open Idealize.ShloMosaic Idealize.ShloMosaic.ValueIdx
open Cert.KernelIdeal Cert.KernelIdeal.Gen Cert.LogSoftmaxScores

/-! ## The scores of a block, at an entry -/

abbrev D1 := dot_S32x128_S128x128_S32x128_1_0_0_1_n_n
abbrev D2 := dot_S32x128_S50257x128_S32x50257_1_1_0_0_n_n

theorem lhs1_0 (i : S32x128.Idx) (q : D1.contr.Idx) : (D1.lhsIdx i q 0).val = (i 0).val := by
  unfold DotDims.lhsIdx
  rw [dif_neg (show ¬(0 : Fin S32x128.rank) ∈ D1.lhsBatch by decide), dif_pos (show (0 : Fin S32x128.rank) ∈ D1.lhsNonContracting by decide)]
  rfl
theorem lhs1_1 (i : S32x128.Idx) (q : D1.contr.Idx) : (D1.lhsIdx i q 1).val = (q ⟨0, by decide⟩).val :=
  D1.lhsIdx_val_of_single rfl i q
theorem rhs1_0 (i : S32x128.Idx) (q : D1.contr.Idx) : (D1.rhsIdx i q 0).val = (q ⟨0, by decide⟩).val :=
  D1.rhsIdx_val_of_single rfl i q
theorem rhs1_1 (i : S32x128.Idx) (q : D1.contr.Idx) : (D1.rhsIdx i q 1).val = (i 1).val := by
  unfold DotDims.rhsIdx
  rw [dif_neg (show ¬(1 : Fin S128x128.rank) ∈ D1.rhsBatch by decide), dif_pos (show (1 : Fin S128x128.rank) ∈ D1.rhsNonContracting by decide)]
  rfl

theorem lhs2_0 (i : S32x50257.Idx) (q : D2.contr.Idx) : (D2.lhsIdx i q 0).val = (i 0).val := by
  unfold DotDims.lhsIdx
  rw [dif_neg (show ¬(0 : Fin S32x128.rank) ∈ D2.lhsBatch by decide), dif_pos (show (0 : Fin S32x128.rank) ∈ D2.lhsNonContracting by decide)]
  rfl
theorem lhs2_1 (i : S32x50257.Idx) (q : D2.contr.Idx) : (D2.lhsIdx i q 1).val = (q ⟨0, by decide⟩).val :=
  D2.lhsIdx_val_of_single rfl i q
theorem rhs2_0 (i : S32x50257.Idx) (q : D2.contr.Idx) : (D2.rhsIdx i q 0).val = (i 1).val := by
  unfold DotDims.rhsIdx
  rw [dif_neg (show ¬(0 : Fin S50257x128.rank) ∈ D2.rhsBatch by decide), dif_pos (show (0 : Fin S50257x128.rank) ∈ D2.rhsNonContracting by decide)]
  rfl
theorem rhs2_1 (i : S32x50257.Idx) (q : D2.contr.Idx) : (D2.rhsIdx i q 1).val = (q ⟨0, by decide⟩).val :=
  D2.rhsIdx_val_of_single rfl i q

/-- `h · M` of a block: entry `(r, k)` is `∑ l, h[r, l] · M[l, k]`. -/
theorem metric_product_apply (h : FVec Ideal S32x128 .f32) (M : FVec Ideal S128x128 .f32) (r : Fin 32) (k : Fin 128) :
    matmul D1 (some .fp32) h M (constant S32x128 .f32 0x00000000#32) (ix2 r k) = ∑ l : Fin 128, h (ix2 r l) * M (ix2 l k) := by
  refine (Ideal.matmul_constant_zero_apply D1 (some .fp32) h M (ix2 r k)).trans ?_
  rw [← Equiv.sum_comp (contrEquiv1 D1 128 rfl rfl).symm]
  refine Finset.sum_congr rfl fun l _ => ?_
  have hl := contrEquiv1_symm_val D1 128 rfl rfl l
  have el : D1.lhsIdx (ix2 r k) ((contrEquiv1 D1 128 rfl rfl).symm l) = ix2 r l := funext fun a => Fin.ext (by
    match a with
    | ⟨0, _⟩ => exact lhs1_0 _ _
    | ⟨1, _⟩ => exact (lhs1_1 _ _).trans hl)
  have er : D1.rhsIdx (ix2 r k) ((contrEquiv1 D1 128 rfl rfl).symm l) = ix2 l k := funext fun a => Fin.ext (by
    match a with
    | ⟨0, _⟩ => exact (rhs1_0 _ _).trans hl
    | ⟨1, _⟩ => exact rhs1_1 _ _)
  rw [el, er]

/-- `g · Eᵀ` of a block: entry `(r, j)` is `∑ k, g[r, k] · E[j, k]` — the table is contracted along its second axis. -/
theorem table_product_apply (g : FVec Ideal S32x128 .f32) (E : FVec Ideal S50257x128 .f32) (r : Fin 32) (j : Fin 50257) :
    matmul D2 (some .fp32) g E (constant S32x50257 .f32 0x00000000#32) (ix2 r j) = ∑ k : Fin 128, g (ix2 r k) * E (ix2 j k) := by
  refine (Ideal.matmul_constant_zero_apply D2 (some .fp32) g E (ix2 r j)).trans ?_
  rw [← Equiv.sum_comp (contrEquiv1 D2 128 rfl rfl).symm]
  refine Finset.sum_congr rfl fun k _ => ?_
  have hk := contrEquiv1_symm_val D2 128 rfl rfl k
  have el : D2.lhsIdx (ix2 r j) ((contrEquiv1 D2 128 rfl rfl).symm k) = ix2 r k := funext fun a => Fin.ext (by
    match a with
    | ⟨0, _⟩ => exact lhs2_0 _ _
    | ⟨1, _⟩ => exact (lhs2_1 _ _).trans hk)
  have er : D2.rhsIdx (ix2 r j) ((contrEquiv1 D2 128 rfl rfl).symm k) = ix2 j k := funext fun a => Fin.ext (by
    match a with
    | ⟨0, _⟩ => exact rhs2_0 _ _
    | ⟨1, _⟩ => exact (rhs2_1 _ _).trans hk)
  rw [el, er]

/-- The first store of the body at `(r, j)`: the score of row `r` of the loaded block against embedding `j`. -/
theorem scores_apply (x0 : Vec Ideal S32x128 .f32) (x1 : Vec Ideal S50257x128 .f32) (x2 : Vec Ideal S128x128 .f32)
    (r : Fin 32) (j : Fin 50257) :
    k1_pay1 (F := Ideal) x0 x1 x2 (ix2 r j) = scoreRow (fun l => x0 (ix2 r l)) x1 x2 j := by
  unfold k1_pay1
  refine (table_product_apply _ x1 r j).trans ?_
  unfold scoreRow metricRow
  refine Finset.sum_congr rfl fun k _ => ?_
  refine congrArg (· * x1 (ix2 j k)) ?_
  refine (metric_product_apply _ x2 r k).trans ?_
  rw [shapeCast_self]

/-! ## The log-softmax of a block of scores, at an entry -/

/-- An exponential and a logarithm of an array, read at an index. -/
theorem exp_apply {s : Shape} (v : FVec Ideal s .f32) (i : s.Idx) : exp v i = Ideal.exp (v i) := rfl
theorem log_apply {s : Shape} (v : FVec Ideal s .f32) (i : s.Idx) : log v i = Ideal.log (v i) := rfl

/-- The row maxima of a block of scores, kept as a column. -/
abbrev maxColumn (S : FVec Ideal S32x50257 .f32) : FVec Ideal S32x1 .f32 :=
  shapeCast S32x1 (multiReduction .maximumf [1] S32 S 0xFF800000#32 reduces_S32x50257_S32 (.inl rfl) rfl) shapeCasts_S32_S32x1

/-- The logarithms of the row sums of `exp (s − m)`, kept as a column. -/
abbrev logSumColumn (S : FVec Ideal S32x50257 .f32) : FVec Ideal S32x1 .f32 :=
  log (shapeCast S32x1 (multiReduction .add [1] S32 (exp (subf S (broadcastTo S32x50257 (maxColumn S) broadcasts_S32x1_S32x50257)))
    0x00000000#32 reduces_S32x50257_S32 (.inl rfl) rfl) shapeCasts_S32_S32x1)

/-- The last store's value when its three loads read the same block `S`: `S − spread (m + ℓ)`. -/
theorem last_store_eq (S : Vec Ideal S32x50257 .f32) :
    k1_pay2 (F := Ideal) S S S
      = subf S (broadcastTo S32x50257 (addf (maxColumn S) (logSumColumn S)) broadcasts_S32x1_S32x50257) := by
  unfold k1_pay2
  simp only [shapeCast_self]

/-- The column of maxima at row `r` is the maximum of row `r`. -/
theorem maxColumn_apply (S : FVec Ideal S32x50257 .f32) (r : Fin 32) :
    maxColumn S (ix2 r (0 : Fin 1)) = rowMax (fun j => S (ix2 r j)) :=
  (Cert.ColumnLayouts.shapeCast_a_a1_apply _ shapeCasts_S32_S32x1 r 0).trans
    ((Cert.RowMax.multiReduction_max_rows_apply S reduces_S32x50257_S32 (.inl rfl) rfl r).trans rfl)

/-- The column of log-sums at row `r` is the logarithm of the sum of the shifted exponentials of row `r`. -/
theorem logSumColumn_apply (S : FVec Ideal S32x50257 .f32) (r : Fin 32) :
    logSumColumn S (ix2 r (0 : Fin 1)) = Ideal.log (sumExp (fun j => S (ix2 r j))) := by
  refine (log_apply _ (ix2 r (0 : Fin 1))).trans ?_
  refine congrArg Ideal.log ?_
  refine (Cert.ColumnLayouts.shapeCast_a_a1_apply _ shapeCasts_S32_S32x1 r 0).trans ?_
  refine (Cert.RowSums.multiReduction_add_rows_apply _ reduces_S32x50257_S32 (.inl rfl) rfl r).trans ?_
  unfold sumExp
  refine Finset.sum_congr rfl fun k _ => ?_
  refine (exp_apply _ (ix2 r k)).trans ?_
  refine congrArg Ideal.exp ?_
  refine (subf_apply S _ (ix2 r k)).trans ?_
  refine congrArg (S (ix2 r k) - ·) ?_
  exact (Cert.ColumnLayouts.broadcastTo_a1_ab_apply _ broadcasts_S32x1_S32x50257 r k).trans (maxColumn_apply S r)

/-- The last store at `(r, j)`: the log-softmax of row `r` of the block of scores, at `j`. -/
theorem logSoftmax_apply (S : Vec Ideal S32x50257 .f32) (r : Fin 32) (j : Fin 50257) :
    k1_pay2 (F := Ideal) S S S (ix2 r j) = logSoftmaxJoint (fun j => S (ix2 r j)) j := by
  rw [last_store_eq]
  refine (subf_apply S _ (ix2 r j)).trans ?_
  unfold logSoftmaxJoint
  refine congrArg (S (ix2 r j) - ·) ?_
  refine (Cert.ColumnLayouts.broadcastTo_a1_ab_apply _ broadcasts_S32x1_S32x50257 r j).trans ?_
  refine (addf_apply (maxColumn S) (logSumColumn S) (ix2 r (0 : Fin 1))).trans ?_
  rw [maxColumn_apply, logSumColumn_apply]

/-- So what the body leaves at `(r, j)`, from the loaded blocks: the log-softmax of the scores of the block's row `r`. -/
theorem block_left_apply (x0 : Vec Ideal S32x128 .f32) (x1 : Vec Ideal S50257x128 .f32) (x2 : Vec Ideal S128x128 .f32)
    (r : Fin 32) (j : Fin 50257) :
    k1_pay2 (F := Ideal) (k1_pay1 x0 x1 x2) (k1_pay1 x0 x1 x2) (k1_pay1 x0 x1 x2) (ix2 r j)
      = logSoftmaxJoint (scoreRow (fun l => x0 (ix2 r l)) x1 x2) j := by
  rw [logSoftmax_apply]
  exact congrArg (fun s => logSoftmaxJoint s j) (funext fun j' => scores_apply x0 x1 x2 r j')

/-- The same entry when row `r` of the loaded block is row `p` of the embedded batch and the table and the metric are
    read whole. -/
theorem block_left_eq (x0 : Vec Ideal S32x128 .f32) (x1 : Vec Ideal S50257x128 .f32) (x2 : Vec Ideal S128x128 .f32)
    (h : S1024x128.Idx → EReal) (E : EmbTable) (M : Metric) (r : Fin 32) (j : Fin 50257) (p : Fin 1024)
    (h0 : ∀ l : Fin 128, x0 (ix2 r l) = h (ix2 p l)) (h1 : ∀ y, x1 y = E y) (h2 : ∀ y, x2 y = M y) :
    k1_pay2 (F := Ideal) (k1_pay1 x0 x1 x2) (k1_pay1 x0 x1 x2) (k1_pay1 x0 x1 x2) (ix2 r j)
      = logSoftmaxJoint (scoreRow (fun l => h (ix2 p l)) E M) j := by
  obtain rfl : x1 = E := funext h1
  obtain rfl : x2 = M := funext h2
  rw [block_left_apply]
  exact congrArg (fun s => logSoftmaxJoint (scoreRow s x1 x2) j) (funext h0)

end Cert.KernelIdeal.ScoreReads

end
-- ==== Proof.ScoreBlocks.lean ====
/-
  The second pass of the kernel over its grid: the batch is cut into 32 blocks of 32 rows, and point `t` writes the block
  of rows `32 t … 32 t + 31` of the normalised scores, computed from rows `32 t + r` of the embedded batch and from the
  whole table and the whole metric. The blocks tile the `[1024, 50257]` array, so after the pass the array holds the
  normalised scores of the embedded batch the pass found.
-/
import proofs.«111833_j40097814675558_2_alg».proof.Proof.ScorePass
import proofs.«111833_j40097814675558_2_alg».proof.Proof.ScoreReads

noncomputable section

namespace Cert.KernelIdeal.ScoreBlocks

open Idealize.ShloMosaic Idealize.ShloMosaic.TcCoe Idealize.SL.Sem Idealize.ShloMosaic.ValueIdx
open Idealize.ShloMosaic.Pipeline (Dat)
open Cert.KernelIdeal Cert.KernelIdeal.Gen Cert.LogSoftmaxScores

variable (V : (c : Dev nD) → (b : Ref sig .tc) → Buf (Elt Ideal) ((c : Thread nD τ).loc b))

/-- Where the printed index maps put each window's block at point `t`: the embedded rows and the output rows move with
    `t`, the table and the metric stay; decided once over the thirty-two points. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the normalised scores. -/
theorem flushed_eq (c : Dev nD) (t : Fin cfg1.N) :
    (dat1 V c).flushed 3 t
      = ((cfg1.win 3).blk t).view.read (Elt Ideal) (normalized (V c main_v0) (V c main_arg1) (V c main_arg2)) := by
  show (cfg1.win 3).cut (grid1.coords t) ((dat1 V c).after 3 t) = _
  rw [after1_3]
  unfold outsAt1
  rw [ScorePass.block_left c (grid1.coords t) (ms1_0 t) (hs1_0 t) (ms1_1 t) (hs1_1 t) (ms1_2 t) (hs1_2 t) (ms1_3 t) (hs1_3 t)
    (iblk1 V c 0 t) (iblk1 V c 1 t) (iblk1 V c 2 t)]
  obtain ⟨e00, e01, e10, e11, e20, e21, e30, e31⟩ := index_facts t
  have ht : t.val < 32 := Nat.lt_of_lt_of_eq t.isLt N_1
  funext y
  obtain ⟨r, j, rfl⟩ : ∃ (r : Fin 32) (j : Fin 50257), y = ix2 r j := ⟨y 0, y 1, eq_ix2 y⟩
  have hr : r.val < 32 := r.isLt
  rw [View.read_apply, cast_eq]
  rw [normalized_apply (V c main_v0) (V c main_arg1) (V c main_arg2) (((cfg1.win 3).blk t).view.emb (ix2 r j))
    ⟨32 * t.val + r.val, by omega⟩ j
    (by show win1_3.index t (0 : Fin 2) * 32 + 1 * r.val = 32 * t.val + r.val; omega)
    (by show win1_3.index t (1 : Fin 2) * 50257 + 1 * j.val = j.val; omega)]
  refine ScoreReads.block_left_eq (iblk1 V c 0 t) (iblk1 V c 1 t) (iblk1 V c 2 t) (V c main_v0) (V c main_arg1) (V c main_arg2) r j
    ⟨32 * t.val + r.val, by omega⟩ (fun l => ?_) (fun y => ?_) (fun y => ?_)
  · have e : ((cfg1.win 0).blk t).view.emb (ix2 r l) = ix2 (⟨32 * t.val + r.val, by omega⟩ : Fin 1024) l := by
      funext a; apply Fin.ext
      match a with
      | ⟨0, _⟩ => show win1_0.index t (0 : Fin 2) * 32 + 1 * r.val = 32 * t.val + r.val; omega
      | ⟨1, _⟩ => show win1_0.index t (1 : Fin 2) * 128 + 1 * l.val = l.val; omega
    show V c main_v0 (((cfg1.win 0).blk t).view.emb (ix2 r l)) = _
    rw [e]
  · have e : ((cfg1.win 1).blk t).view.emb y = y := by
      funext a; apply Fin.ext
      match a with
      | ⟨0, _⟩ => show win1_1.index t (0 : Fin 2) * 50257 + 1 * (y 0).val = (y 0).val; omega
      | ⟨1, _⟩ => show win1_1.index t (1 : Fin 2) * 128 + 1 * (y 1).val = (y 1).val; omega
    show V c main_arg1 (((cfg1.win 1).blk t).view.emb y) = _
    rw [e]
  · have e : ((cfg1.win 2).blk t).view.emb y = y := by
      funext a; apply Fin.ext
      match a with
      | ⟨0, _⟩ => show win1_2.index t (0 : Fin 2) * 128 + 1 * (y 0).val = (y 0).val; omega
      | ⟨1, _⟩ => show win1_2.index t (1 : Fin 2) * 128 + 1 * (y 1).val = (y 1).val; omega
    show V c main_arg2 (((cfg1.win 2).blk t).view.emb y) = _
    rw [e]

/-- An index of the `[1024, 50257]` array is in point `t`'s block iff each coordinate is in the block's range. -/
theorem mem_blk (t : Fin cfg1.N) (i : S1024x50257.Idx) :
    i ∈ ((cfg1.win 3).blk t).view.set ↔ ∀ a : Fin 2, win1_3.index t a * S32x50257.size a ≤ (i a).val ∧ (i a).val < win1_3.index t a * S32x50257.size a + S32x50257.size a := by
  show i ∈ ((View.whole main_v1).slice (win1_3.rect t)).set ↔ _
  rw [View.set_slice_whole, Rect.mem_set_unit]
  exact Iff.rfl

/-- Row `p` lies in the block of point `p / 32`: the thirty-two blocks tile the array. -/
theorem covered (i : S1024x50257.Idx) : ∃ t : Fin cfg1.N, (cfg1.win 3).flush t = true ∧ i ∈ ((cfg1.win 3).blk t).view.set := by
  have hi0 : (i 0).val < 1024 := (i 0).isLt
  have hi1 : (i 1).val < 50257 := (i 1).isLt
  have hN : cfg1.N = 32 := N_1
  refine ⟨⟨(i 0).val / 32, by rw [hN]; omega⟩, flush1_3 _, ?_⟩
  obtain ⟨-, -, -, -, -, -, e30, e31⟩ := index_facts ⟨(i 0).val / 32, by rw [hN]; omega⟩
  rw [mem_blk]
  intro a
  match a with
  | ⟨0, _⟩ =>
    show win1_3.index _ (0 : Fin 2) * 32 ≤ (i 0).val ∧ (i 0).val < win1_3.index _ (0 : Fin 2) * 32 + 32
    rw [e30]; show (i 0).val / 32 * 32 ≤ (i 0).val ∧ (i 0).val < (i 0).val / 32 * 32 + 32; omega
  | ⟨1, _⟩ =>
    show win1_3.index _ (1 : Fin 2) * 50257 ≤ (i 1).val ∧ (i 1).val < win1_3.index _ (1 : Fin 2) * 50257 + 50257
    rw [e31]; omega

/-- After the second pass the `[1024, 50257]` array holds the normalised scores of the arrays the pass found. -/
theorem final (c : Dev nD) :
    (dat1 V c).arrAt 3 cfg1.N = normalized (V c main_v0) (V c main_arg1) (V c main_arg2) :=
  (dat1 V c).arrAt_eq_of_cover 3 (normalized (V c main_v0) (V c main_arg1) (V c main_arg2)) (fun t _ => flushed_eq V c t) covered

end Cert.KernelIdeal.ScoreBlocks

end
-- ==== Proof.KernelRun.lean ====
/-
  The kernel's program run from start to end: two passes one after the other. The first pass leaves the embedded batch
  `xs · E` in an intermediate array; the second finds that array, the table and the metric as the first left them, and
  leaves the normalised scores in the result array. So the result array ends holding the whole computation of the three
  argument arrays, which themselves end as they were launched.
-/
import proofs.«111833_j40097814675558_2_alg».proof.Proof.EmbedPass
import proofs.«111833_j40097814675558_2_alg».proof.Proof.ScoreBlocks

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LogSoftmaxScores

variable (m : (ℓ : Loc nD τ sig) → Buf (Elt Ideal) ℓ) (ρ : Dev nD → PrngReg)

local notation "𝕄" => MT nD τ sig Unit (Elt Ideal) ℕ (UR sig nD τ) ℕ

/-- What the second pass finds in the intermediate array: the embedded batch of the launch arrays. -/
theorem found_embedded (c : Dev nD) :
    V1 m ρ c main_v0 = embedded (m ((c : Thread nD τ).loc main_arg0)) (m ((c : Thread nD τ).loc main_arg1)) :=
  (W1_arr m ρ c 2).trans (EmbedPass.final (V0 m ρ) c)

/-- The second pass finds the table as launched: the first pass only read it. -/
theorem found_table (c : Dev nD) : V1 m ρ c main_arg1 = m ((c : Thread nD τ).loc main_arg1) :=
  (W1_arr m ρ c 1).trans (((dat0 (V0 m ρ) c).arrAt_in 1 rfl _).trans (A_eq0 (V0 m ρ) c 1))

/-- The second pass finds the metric as launched: the first pass never touched it. -/
theorem found_metric (c : Dev nD) : V1 m ρ c main_arg2 = m ((c : Thread nD τ).loc main_arg2) :=
  W1_of_ne m ρ c main_arg2 (by decide)

/-- The result array after both passes: the whole computation of the launch arrays. -/
theorem result_array (c : Dev nD) :
    W2 m ρ c (Proc.devRef .tc main_v1)
      = result (m ((c : Thread nD τ).loc main_arg0)) (m ((c : Thread nD τ).loc main_arg1)) (m ((c : Thread nD τ).loc main_arg2)) := by
  refine (W2_arr m ρ c 3).trans ((ScoreBlocks.final (V1 m ρ) c).trans ?_)
  rw [found_embedded, found_table, found_metric]
  rfl

set_option backward.isDefEq.respectTransparency.types false in
/-- Every weakly fair execution of the program terminates, nothing faulting, with the result array at the whole
    computation of the launch arrays and the three arguments as launched: the launch over the program's two segments,
    the last thread state read against the final state. -/
theorem run : θ_run defs (onTc (τ := τ) (main (F := Ideal))) ⟨m, fun _ => 0, ρ⟩ (fun r => ∀ c : Dev nD,
      r.2.mem ((c.tc : Thread nD τ).loc main_v1)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (result_array m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.Whole

end
-- ==== Proof.RefRun.lean ====
/-
  The reference program is a straight line of 19 host operations on three argument arrays: three matrix products (one
  operand transposed) give the scores, then every row of scores is normalised by the logarithm of its softmax: the row
  maximum, the exponentials of the shifted row, their sum, its logarithm, and two subtractions. Run in order from any
  contents, an operation leaves in its result buffer its function of its operands' contents and leaves every other buffer
  as it was. So after each operation the buffers a later operation still reads hold stage functions of the three arguments
  (`ReadP.val_…`, one per operation), and the last operation leaves the last stage, `ReadP.val_main_v4`, in the result
  buffer; no operation writes an argument. `after_main_v4` is that computation, one operation at a time, and `run` is the
  statement about executions: every weakly fair execution terminates with the result buffer at the last stage of the
  arguments' launch contents, the arguments unchanged.
-/
import proofs.«111833_j40097814675558_2_alg».proof.Proof.Gen.ReferenceIdeal
import proofs.«111833_j40097814675558_2_alg».proof.Proof.RefRead
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-! @main's 19 operations, in order (a called function's operations stand in its call's place, spelt `TRef.…`). -/
abbrev o1 : HloOp τ sig (Elt F) :=
  binary main_arg0 main_arg1 main_v0 ((fun l r => Host.dotGeneral dot_S1024x50257_S50257x128_S1024x128_1_0_0_1_n_n none l r) : (⟨S1024x50257, .f32⟩ : BufTy).Contents (Elt F) → (⟨S50257x128, .f32⟩ : BufTy).Contents (Elt F) → (⟨S1024x128, .f32⟩ : BufTy).Contents (Elt F))
abbrev o2 : HloOp τ sig (Elt F) :=
  binary main_v0 main_arg2 main_v1 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F))
abbrev o3 : HloOp τ sig (Elt F) :=
  unary main_arg1 main_v2 ((transpose S128x50257 [1, 0] · transposes_S50257x128_S128x50257_1_0) : (⟨S50257x128, .f32⟩ : BufTy).Contents (Elt F) → (⟨S128x50257, .f32⟩ : BufTy).Contents (Elt F))
abbrev o4 : HloOp τ sig (Elt F) :=
  binary main_v1 main_v2 main_v3 ((fun l r => Host.dotGeneral dot_S1024x128_S128x50257_S1024x50257_1_0_0_1_n_n none l r) : (⟨S1024x128, .f32⟩ : BufTy).Contents (Elt F) → (⟨S128x50257, .f32⟩ : BufTy).Contents (Elt F) → (⟨S1024x50257, .f32⟩ : BufTy).Contents (Elt F))
abbrev o5 : HloOp τ sig (Elt F) :=
  TRef.nullary (TRef.of (T := ⟨S_, .f32⟩) main_call0_cst) (constant S_ .f32 0xFF800000#32)
abbrev o6 : HloOp τ sig (Elt F) :=
  TRef.binary (TRef.of (T := ⟨S1024x50257, .f32⟩) main_v3) (TRef.of (T := ⟨S_, .f32⟩) main_call0_cst) (TRef.of (T := ⟨S1024, .f32⟩) main_call0_v0) (fun x v => Host.reduce FloatOps.maximumf x v reducesTo_S1024x50257_S1024_d1 h_S_)
abbrev o7 : HloOp τ sig (Elt F) :=
  TRef.nullary (TRef.of (T := ⟨S_, .f32⟩) main_call0_cst_0) (constant S_ .f32 0xFF800000#32)
abbrev o8 : HloOp τ sig (Elt F) :=
  TRef.unary (TRef.of (T := ⟨S_, .f32⟩) main_call0_cst_0) (TRef.of (T := ⟨S1024, .f32⟩) main_call0_v1) (broadcastInDim S1024 ![] bcast_S_S1024)
abbrev o9 : HloOp τ sig (Elt F) :=
  TRef.binary (TRef.of (T := ⟨S1024, .f32⟩) main_call0_v1) (TRef.of (T := ⟨S1024, .f32⟩) main_call0_v0) (TRef.of (T := ⟨S1024, .f32⟩) main_call0_v2) maximumf
abbrev o10 : HloOp τ sig (Elt F) :=
  TRef.unary (TRef.of (T := ⟨S1024, .f32⟩) main_call0_v2) (TRef.of (T := ⟨S1024x1, .f32⟩) main_call0_v3) (broadcastInDim S1024x1 ![0] bcast_S1024_S1024x1_0)
abbrev o11 : HloOp τ sig (Elt F) :=
  TRef.unary (TRef.of (T := ⟨S1024x1, .f32⟩) main_call0_v3) (TRef.of (T := ⟨S1024x50257, .f32⟩) main_call0_v4) (broadcastInDim S1024x50257 ![0, 1] bcast_S1024x1_S1024x50257_0_1)
abbrev o12 : HloOp τ sig (Elt F) :=
  TRef.binary (TRef.of (T := ⟨S1024x50257, .f32⟩) main_v3) (TRef.of (T := ⟨S1024x50257, .f32⟩) main_call0_v4) (TRef.of (T := ⟨S1024x50257, .f32⟩) main_call0_v5) subf
abbrev o13 : HloOp τ sig (Elt F) :=
  TRef.unary (TRef.of (T := ⟨S1024x50257, .f32⟩) main_call0_v5) (TRef.of (T := ⟨S1024x50257, .f32⟩) main_call0_v6) Host.exp
abbrev o14 : HloOp τ sig (Elt F) :=
  TRef.nullary (TRef.of (T := ⟨S_, .f32⟩) main_call0_cst_1) (constant S_ .f32 0x00000000#32)
abbrev o15 : HloOp τ sig (Elt F) :=
  TRef.binary (TRef.of (T := ⟨S1024x50257, .f32⟩) main_call0_v6) (TRef.of (T := ⟨S_, .f32⟩) main_call0_cst_1) (TRef.of (T := ⟨S1024, .f32⟩) main_call0_v7) (fun x v => Host.reduceAdd x v reducesTo_S1024x50257_S1024_d1 h_S_)
abbrev o16 : HloOp τ sig (Elt F) :=
  TRef.unary (TRef.of (T := ⟨S1024, .f32⟩) main_call0_v7) (TRef.of (T := ⟨S1024x1, .f32⟩) main_call0_v8) (broadcastInDim S1024x1 ![0] bcast_S1024_S1024x1_0)
abbrev o17 : HloOp τ sig (Elt F) :=
  TRef.unary (TRef.of (T := ⟨S1024x1, .f32⟩) main_call0_v8) (TRef.of (T := ⟨S1024x1, .f32⟩) main_call0_v9) Host.log
abbrev o18 : HloOp τ sig (Elt F) :=
  TRef.unary (TRef.of (T := ⟨S1024x1, .f32⟩) main_call0_v9) (TRef.of (T := ⟨S1024x50257, .f32⟩) main_call0_v10) (broadcastInDim S1024x50257 ![0, 1] bcast_S1024x1_S1024x50257_0_1)
abbrev o19 : HloOp τ sig (Elt F) :=
  TRef.binary (TRef.of (T := ⟨S1024x50257, .f32⟩) main_call0_v5) (TRef.of (T := ⟨S1024x50257, .f32⟩) main_call0_v10) (TRef.of (T := ⟨S1024x50257, .f32⟩) main_v4) subf

abbrev ops : List (HloOp τ sig (Elt F)) :=
  [o1, o2, o3, o4, o5, o6, o7, o8, o9, o10, o11, o12, o13, o14, o15, o16, o17, o18, o19]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- An operation's result at its own result buffer: its function's value at its operands' contents. -/
local macro "result_step" : tactic =>
  `(tactic| first | rw [nullary_result] | rw [unary_result] | rw [binary_result])
/-- An operation's result at a buffer not its own: what was there (the two references told apart by computation). -/
local macro "frame_step" : tactic =>
  `(tactic| first
      | (rw [nullary_result_ne]; decide)
      | (rw [unary_result_ne]; decide)
      | (rw [binary_result_ne]; decide))

/-- What `main_v4` holds after the 19 operations, from any contents: the last stage, at the arguments' contents. Each
    step reads one operation: its result buffer holds its function at the operands' recorded stages, which IS the next
    stage (by its definition), and the buffers still to be read hold what they held. -/
theorem after_main_v4 (V : Valuation τ sig (Elt F))
    (x0 : (⟨S1024x50257, .f32⟩ : BufTy).Contents (Elt F)) (x1 : (⟨S50257x128, .f32⟩ : BufTy).Contents (Elt F))
    (x2 : (⟨S128x128, .f32⟩ : BufTy).Contents (Elt F))
    (h0 : V (Proc.devRef .tc main_arg0) = x0) (h1 : V (Proc.devRef .tc main_arg1) = x1) (h2 : V (Proc.devRef .tc main_arg2) = x2) :
    after (ops (F := F)) V (Proc.devRef .tc main_v4) = ReadP.val_main_v4 (F := F) x0 x1 x2 := by
  simp only [after_cons, after_nil]
  -- operation 1 writes main_v0
  have e1_v0 : (o1 (F := F)).result V (Proc.devRef .tc main_v0) = ReadP.val_main_v0 (F := F) x0 x1 := by
    result_step
    rw [h0, h1]
    rfl
  have e1_arg2 : (o1 (F := F)).result V (Proc.devRef .tc main_arg2) = x2 := by
    refine Eq.trans ?_ h2
    frame_step
  have e1_arg1 : (o1 (F := F)).result V (Proc.devRef .tc main_arg1) = x1 := by
    refine Eq.trans ?_ h1
    frame_step
  generalize (o1 (F := F)).result V = W1 at e1_v0 e1_arg2 e1_arg1 ⊢
  -- operation 2 writes main_v1
  have e2_v1 : (o2 (F := F)).result W1 (Proc.devRef .tc main_v1) = ReadP.val_main_v1 (F := F) x0 x1 x2 := by
    result_step
    rw [e1_v0, e1_arg2]
    rfl
  have e2_arg1 : (o2 (F := F)).result W1 (Proc.devRef .tc main_arg1) = x1 := by
    refine Eq.trans ?_ e1_arg1
    frame_step
  generalize (o2 (F := F)).result W1 = W2 at e2_arg1 e2_v1 ⊢
  -- operation 3 writes main_v2
  have e3_v2 : (o3 (F := F)).result W2 (Proc.devRef .tc main_v2) = ReadP.val_main_v2 (F := F) x1 := by
    result_step
    rw [e2_arg1]
    rfl
  have e3_v1 : (o3 (F := F)).result W2 (Proc.devRef .tc main_v1) = ReadP.val_main_v1 (F := F) x0 x1 x2 := by
    refine Eq.trans ?_ e2_v1
    frame_step
  generalize (o3 (F := F)).result W2 = W3 at e3_v1 e3_v2 ⊢
  -- operation 4 writes main_v3
  have e4_v3 : (o4 (F := F)).result W3 (Proc.devRef .tc main_v3) = ReadP.val_main_v3 (F := F) x0 x1 x2 := by
    result_step
    rw [e3_v1, e3_v2]
    rfl
  generalize (o4 (F := F)).result W3 = W4 at e4_v3 ⊢
  -- operation 5 writes main_call0_cst
  have e5_c_cst : (o5 (F := F)).result W4 (Proc.devRef .tc main_call0_cst) = ReadP.val_main_call0_cst (F := F) := by
    result_step
    simp only [cast_eq]
    rfl
  have e5_v3 : (o5 (F := F)).result W4 (Proc.devRef .tc main_v3) = ReadP.val_main_v3 (F := F) x0 x1 x2 := by
    refine Eq.trans ?_ e4_v3
    frame_step
  generalize (o5 (F := F)).result W4 = W5 at e5_v3 e5_c_cst ⊢
  -- operation 6 writes main_call0_v0
  have e6_c_v0 : (o6 (F := F)).result W5 (Proc.devRef .tc main_call0_v0) = ReadP.val_main_call0_v0 (F := F) x0 x1 x2 := by
    result_step
    simp only [cast_eq]
    rw [e5_v3, e5_c_cst]
    rfl
  have e6_v3 : (o6 (F := F)).result W5 (Proc.devRef .tc main_v3) = ReadP.val_main_v3 (F := F) x0 x1 x2 := by
    refine Eq.trans ?_ e5_v3
    frame_step
  generalize (o6 (F := F)).result W5 = W6 at e6_c_v0 e6_v3 ⊢
  -- operation 7 writes main_call0_cst_0
  have e7_c_cst_0 : (o7 (F := F)).result W6 (Proc.devRef .tc main_call0_cst_0) = ReadP.val_main_call0_cst_0 (F := F) := by
    result_step
    simp only [cast_eq]
    rfl
  have e7_c_v0 : (o7 (F := F)).result W6 (Proc.devRef .tc main_call0_v0) = ReadP.val_main_call0_v0 (F := F) x0 x1 x2 := by
    refine Eq.trans ?_ e6_c_v0
    frame_step
  have e7_v3 : (o7 (F := F)).result W6 (Proc.devRef .tc main_v3) = ReadP.val_main_v3 (F := F) x0 x1 x2 := by
    refine Eq.trans ?_ e6_v3
    frame_step
  generalize (o7 (F := F)).result W6 = W7 at e7_c_cst_0 e7_c_v0 e7_v3 ⊢
  -- operation 8 writes main_call0_v1
  have e8_c_v1 : (o8 (F := F)).result W7 (Proc.devRef .tc main_call0_v1) = ReadP.val_main_call0_v1 (F := F) := by
    result_step
    simp only [cast_eq]
    rw [e7_c_cst_0]
    rfl
  have e8_c_v0 : (o8 (F := F)).result W7 (Proc.devRef .tc main_call0_v0) = ReadP.val_main_call0_v0 (F := F) x0 x1 x2 := by
    refine Eq.trans ?_ e7_c_v0
    frame_step
  have e8_v3 : (o8 (F := F)).result W7 (Proc.devRef .tc main_v3) = ReadP.val_main_v3 (F := F) x0 x1 x2 := by
    refine Eq.trans ?_ e7_v3
    frame_step
  generalize (o8 (F := F)).result W7 = W8 at e8_c_v1 e8_c_v0 e8_v3 ⊢
  -- operation 9 writes main_call0_v2
  have e9_c_v2 : (o9 (F := F)).result W8 (Proc.devRef .tc main_call0_v2) = ReadP.val_main_call0_v2 (F := F) x0 x1 x2 := by
    result_step
    simp only [cast_eq]
    rw [e8_c_v1, e8_c_v0]
    rfl
  have e9_v3 : (o9 (F := F)).result W8 (Proc.devRef .tc main_v3) = ReadP.val_main_v3 (F := F) x0 x1 x2 := by
    refine Eq.trans ?_ e8_v3
    frame_step
  generalize (o9 (F := F)).result W8 = W9 at e9_c_v2 e9_v3 ⊢
  -- operation 10 writes main_call0_v3
  have e10_c_v3 : (o10 (F := F)).result W9 (Proc.devRef .tc main_call0_v3) = ReadP.val_main_call0_v3 (F := F) x0 x1 x2 := by
    result_step
    simp only [cast_eq]
    rw [e9_c_v2]
    rfl
  have e10_v3 : (o10 (F := F)).result W9 (Proc.devRef .tc main_v3) = ReadP.val_main_v3 (F := F) x0 x1 x2 := by
    refine Eq.trans ?_ e9_v3
    frame_step
  generalize (o10 (F := F)).result W9 = W10 at e10_c_v3 e10_v3 ⊢
  -- operation 11 writes main_call0_v4
  have e11_c_v4 : (o11 (F := F)).result W10 (Proc.devRef .tc main_call0_v4) = ReadP.val_main_call0_v4 (F := F) x0 x1 x2 := by
    result_step
    simp only [cast_eq]
    rw [e10_c_v3]
    rfl
  have e11_v3 : (o11 (F := F)).result W10 (Proc.devRef .tc main_v3) = ReadP.val_main_v3 (F := F) x0 x1 x2 := by
    refine Eq.trans ?_ e10_v3
    frame_step
  generalize (o11 (F := F)).result W10 = W11 at e11_v3 e11_c_v4 ⊢
  -- operation 12 writes main_call0_v5
  have e12_c_v5 : (o12 (F := F)).result W11 (Proc.devRef .tc main_call0_v5) = ReadP.val_main_call0_v5 (F := F) x0 x1 x2 := by
    result_step
    simp only [cast_eq]
    rw [e11_v3, e11_c_v4]
    rfl
  generalize (o12 (F := F)).result W11 = W12 at e12_c_v5 ⊢
  -- operation 13 writes main_call0_v6
  have e13_c_v6 : (o13 (F := F)).result W12 (Proc.devRef .tc main_call0_v6) = ReadP.val_main_call0_v6 (F := F) x0 x1 x2 := by
    result_step
    simp only [cast_eq]
    rw [e12_c_v5]
    rfl
  have e13_c_v5 : (o13 (F := F)).result W12 (Proc.devRef .tc main_call0_v5) = ReadP.val_main_call0_v5 (F := F) x0 x1 x2 := by
    refine Eq.trans ?_ e12_c_v5
    frame_step
  generalize (o13 (F := F)).result W12 = W13 at e13_c_v6 e13_c_v5 ⊢
  -- operation 14 writes main_call0_cst_1
  have e14_c_cst_1 : (o14 (F := F)).result W13 (Proc.devRef .tc main_call0_cst_1) = ReadP.val_main_call0_cst_1 (F := F) := by
    result_step
    simp only [cast_eq]
    rfl
  have e14_c_v6 : (o14 (F := F)).result W13 (Proc.devRef .tc main_call0_v6) = ReadP.val_main_call0_v6 (F := F) x0 x1 x2 := by
    refine Eq.trans ?_ e13_c_v6
    frame_step
  have e14_c_v5 : (o14 (F := F)).result W13 (Proc.devRef .tc main_call0_v5) = ReadP.val_main_call0_v5 (F := F) x0 x1 x2 := by
    refine Eq.trans ?_ e13_c_v5
    frame_step
  generalize (o14 (F := F)).result W13 = W14 at e14_c_v6 e14_c_cst_1 e14_c_v5 ⊢
  -- operation 15 writes main_call0_v7
  have e15_c_v7 : (o15 (F := F)).result W14 (Proc.devRef .tc main_call0_v7) = ReadP.val_main_call0_v7 (F := F) x0 x1 x2 := by
    result_step
    simp only [cast_eq]
    rw [e14_c_v6, e14_c_cst_1]
    rfl
  have e15_c_v5 : (o15 (F := F)).result W14 (Proc.devRef .tc main_call0_v5) = ReadP.val_main_call0_v5 (F := F) x0 x1 x2 := by
    refine Eq.trans ?_ e14_c_v5
    frame_step
  generalize (o15 (F := F)).result W14 = W15 at e15_c_v7 e15_c_v5 ⊢
  -- operation 16 writes main_call0_v8
  have e16_c_v8 : (o16 (F := F)).result W15 (Proc.devRef .tc main_call0_v8) = ReadP.val_main_call0_v8 (F := F) x0 x1 x2 := by
    result_step
    simp only [cast_eq]
    rw [e15_c_v7]
    rfl
  have e16_c_v5 : (o16 (F := F)).result W15 (Proc.devRef .tc main_call0_v5) = ReadP.val_main_call0_v5 (F := F) x0 x1 x2 := by
    refine Eq.trans ?_ e15_c_v5
    frame_step
  generalize (o16 (F := F)).result W15 = W16 at e16_c_v8 e16_c_v5 ⊢
  -- operation 17 writes main_call0_v9
  have e17_c_v9 : (o17 (F := F)).result W16 (Proc.devRef .tc main_call0_v9) = ReadP.val_main_call0_v9 (F := F) x0 x1 x2 := by
    result_step
    simp only [cast_eq]
    rw [e16_c_v8]
    rfl
  have e17_c_v5 : (o17 (F := F)).result W16 (Proc.devRef .tc main_call0_v5) = ReadP.val_main_call0_v5 (F := F) x0 x1 x2 := by
    refine Eq.trans ?_ e16_c_v5
    frame_step
  generalize (o17 (F := F)).result W16 = W17 at e17_c_v9 e17_c_v5 ⊢
  -- operation 18 writes main_call0_v10
  have e18_c_v10 : (o18 (F := F)).result W17 (Proc.devRef .tc main_call0_v10) = ReadP.val_main_call0_v10 (F := F) x0 x1 x2 := by
    result_step
    simp only [cast_eq]
    rw [e17_c_v9]
    rfl
  have e18_c_v5 : (o18 (F := F)).result W17 (Proc.devRef .tc main_call0_v5) = ReadP.val_main_call0_v5 (F := F) x0 x1 x2 := by
    refine Eq.trans ?_ e17_c_v5
    frame_step
  generalize (o18 (F := F)).result W17 = W18 at e18_c_v5 e18_c_v10 ⊢
  -- operation 19 writes the result
  result_step
  simp only [cast_eq]
  rw [e18_c_v5, e18_c_v10]
  rfl

/-- No operation writes an argument. -/
theorem after_main_arg0 (V : Valuation τ sig (Elt F)) : after (ops (F := F)) V (Proc.devRef .tc main_arg0) = V (Proc.devRef .tc main_arg0) := by
  after_results
theorem after_main_arg1 (V : Valuation τ sig (Elt F)) : after (ops (F := F)) V (Proc.devRef .tc main_arg1) = V (Proc.devRef .tc main_arg1) := by
  after_results
theorem after_main_arg2 (V : Valuation τ sig (Elt F)) : after (ops (F := F)) V (Proc.devRef .tc main_arg2) = V (Proc.devRef .tc main_arg2) := by
  after_results

/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = ReadP.val_main_v4 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v4).trans (after_main_v4 _ _ _ _ rfl rfl rfl),
      (h c main_arg0).trans (after_main_arg0 _),
      (h c main_arg1).trans (after_main_arg1 _),
      (h c main_arg2).trans (after_main_arg2 _)⟩)
    (run_seq scopedRefs_eq scopedSems_eq defs main (fun _ => ops) main_eq (fun _ => ops_sub) m ρ)

end Cert.ReferenceIdeal.ValueP

end
-- ==== Proof.RefValue.lean ====
/-
  The reference program computes the function of the claim.

  Its stages, read at a row `p` and a column: the three matrix products are the embedded row `xs[p, ·] · E`, its image
  under the metric, and its scores against every embedding (the second operand of the last product is `E` transposed, so
  the entry read is `E[j, k]`). The maximum of a row, reduced from `−∞` and then once more compared with `−∞`, is the row
  maximum `m`. The program then subtracts `m`, exponentiates, sums from `0` to the sum `Σ` of the shifted exponentials,
  and subtracts `log Σ`: it computes `(s − m) − log Σ`, the log-softmax with the maximum and the log-sum subtracted in
  turn. The claim's function subtracts them together, `s − (m + log Σ)`; the two agree on every row whose maximum is
  neither infinity, which is the hypothesis.
-/
import proofs.«111833_j40097814675558_2_alg».proof.Proof.RefRead
import proofs.«111833_j40097814675558_2_alg».proof.Proof.Spec

noncomputable section

open scoped BigOperators

namespace Cert.ReferenceIdeal.RefValue

open Cert.ReferenceIdeal Cert.ReferenceIdeal.Gen Cert.ReferenceIdeal.ReadP Cert.LogSoftmaxScores
open Idealize.ShloMosaic Idealize.ShloMosaic.ValueIdx

variable (x0 : (⟨S1024x50257, .f32⟩ : BufTy).Contents (Elt Ideal)) (x1 : (⟨S50257x128, .f32⟩ : BufTy).Contents (Elt Ideal)) (x2 : (⟨S128x128, .f32⟩ : BufTy).Contents (Elt Ideal))

/-- Row `p` of the batch, embedded, and its scores. -/
abbrev hRow (p : Fin 1024) : Fin 128 → EReal := embedRow (fun v => x0 (ix2 p v)) x1
abbrev sRow (p : Fin 1024) : Fin 50257 → EReal := scoreRow (hRow x0 x1 p) x1 x2

/-! ## The indices the stages read, at a row and a column -/

theorem lidx_v0 (p : Fin 1024) (l : Fin 128) (k : Fin 50257) : lidx_main_v0 (ix2 p l) k = ix2 p k := funext fun a => Fin.ext (by match a with | ⟨0, _⟩ => rfl | ⟨1, _⟩ => rfl)
theorem ridx_v0 (p : Fin 1024) (l : Fin 128) (k : Fin 50257) : ridx_main_v0 (ix2 p l) k = ix2 k l := funext fun a => Fin.ext (by match a with | ⟨0, _⟩ => rfl | ⟨1, _⟩ => rfl)
theorem lidx_v1 (p : Fin 1024) (k l : Fin 128) : lidx_main_v1 (ix2 p k) l = ix2 p l := funext fun a => Fin.ext (by match a with | ⟨0, _⟩ => rfl | ⟨1, _⟩ => rfl)
theorem ridx_v1 (p : Fin 1024) (k l : Fin 128) : ridx_main_v1 (ix2 p k) l = ix2 l k := funext fun a => Fin.ext (by match a with | ⟨0, _⟩ => rfl | ⟨1, _⟩ => rfl)
theorem idx_v2 (k : Fin 128) (j : Fin 50257) : idx_main_v2 (ix2 k j) = ix2 j k := funext fun a => Fin.ext (by match a with | ⟨0, _⟩ => rfl | ⟨1, _⟩ => rfl)
theorem lidx_v3 (p : Fin 1024) (j : Fin 50257) (k : Fin 128) : lidx_main_v3 (ix2 p j) k = ix2 p k := funext fun a => Fin.ext (by match a with | ⟨0, _⟩ => rfl | ⟨1, _⟩ => rfl)
theorem ridx_v3 (p : Fin 1024) (j : Fin 50257) (k : Fin 128) : ridx_main_v3 (ix2 p j) k = ix2 k j := funext fun a => Fin.ext (by match a with | ⟨0, _⟩ => rfl | ⟨1, _⟩ => rfl)
theorem idx_c3c4 (p : Fin 1024) (j : Fin 50257) : idx_main_call0_v3 (idx_main_call0_v4 (ix2 p j)) = ix1 p := funext fun a => Fin.ext (by match a with | ⟨0, _⟩ => rfl)
theorem idx_c7 (p : Fin 1024) (k : Fin 50257) : idx_main_call0_v7 (ix1 p) k = ix2 p k := funext fun a => Fin.ext (by match a with | ⟨0, _⟩ => rfl | ⟨1, _⟩ => rfl)
theorem idx_c8c10 (p : Fin 1024) (j : Fin 50257) : idx_main_call0_v8 (idx_main_call0_v10 (ix2 p j)) = ix1 p := funext fun a => Fin.ext (by match a with | ⟨0, _⟩ => rfl)

/-! ## The three products -/

/-- `xs · E` at `(p, l)`: the embedded row. -/
theorem v0_at (p : Fin 1024) (l : Fin 128) : val_main_v0 (F := Ideal) x0 x1 (ix2 p l) = hRow x0 x1 p l := by
  rw [val_main_v0_apply]
  exact Finset.sum_congr rfl fun k _ => by rw [lidx_v0, ridx_v0]

/-- `(xs · E) · M` at `(p, k)`: the metric row. -/
theorem v1_at (p : Fin 1024) (k : Fin 128) : val_main_v1 (F := Ideal) x0 x1 x2 (ix2 p k) = metricRow (hRow x0 x1 p) x2 k := by
  rw [val_main_v1_apply]
  exact Finset.sum_congr rfl fun l _ => by rw [lidx_v1, ridx_v1, v0_at]

/-- `Eᵀ` at `(k, j)` is `E[j, k]`. -/
theorem v2_at (k : Fin 128) (j : Fin 50257) : val_main_v2 (F := Ideal) x1 (ix2 k j) = x1 (ix2 j k) := by
  rw [val_main_v2_apply, idx_v2]

/-- The scores at `(p, j)`. -/
theorem v3_at (p : Fin 1024) (j : Fin 50257) : val_main_v3 (F := Ideal) x0 x1 x2 (ix2 p j) = sRow x0 x1 x2 p j := by
  rw [val_main_v3_apply]
  exact Finset.sum_congr rfl fun k _ => by rw [lidx_v3, ridx_v3, v1_at, v2_at]

/-! ## The row maximum -/

theorem reduces_d1 : S1024x50257.Reduces [1] S1024 := by decide

/-- The maximum reduced over the columns from `−∞`, at row `p`, is the row maximum of the scores. -/
theorem c0_at (p : Fin 1024) : val_main_call0_v0 (F := Ideal) x0 x1 x2 (ix1 p) = rowMax (sRow x0 x1 x2 p) := by
  unfold val_main_call0_v0
  refine (Host.reduce_eq_fold_single (α := EReal) max (val_main_v3 (F := Ideal) x0 x1 x2) (val_main_call0_cst (F := Ideal))
    reducesTo_S1024x50257_S1024_d1 reduces_d1 h_S_ (ix1 p)).trans ?_
  unfold rowMax
  refine Finset.fold_congr fun (j : Fin 50257) _ => ?_
  have hidx : reduces_d1.lift (ix1 p) j = (ix2 p j : S1024x50257.Idx) :=
    funext fun a => Fin.ext (by match a with | ⟨0, _⟩ => rfl | ⟨1, _⟩ => rfl)
  exact (congrArg (val_main_v3 (F := Ideal) x0 x1 x2) hidx).trans (v3_at x0 x1 x2 p j)

/-- Compared once more with `−∞`, it is the row maximum still. -/
theorem c2_at (p : Fin 1024) : val_main_call0_v2 (F := Ideal) x0 x1 x2 (ix1 p) = rowMax (sRow x0 x1 x2 p) := by
  rw [val_main_call0_v2_apply, val_main_call0_v1_apply, val_main_call0_cst_0_apply, c0_at]
  exact max_negInf_rowMax _

/-- Broadcast along the row: every column of row `p` reads the row maximum. -/
theorem c4_at (p : Fin 1024) (j : Fin 50257) : val_main_call0_v4 (F := Ideal) x0 x1 x2 (ix2 p j) = rowMax (sRow x0 x1 x2 p) := by
  rw [val_main_call0_v4_apply, val_main_call0_v3_apply, idx_c3c4, c2_at]

/-! ## The shifted scores, their exponentials' sum, and its logarithm -/

theorem c5_at (p : Fin 1024) (j : Fin 50257) :
    val_main_call0_v5 (F := Ideal) x0 x1 x2 (ix2 p j) = sRow x0 x1 x2 p j - rowMax (sRow x0 x1 x2 p) := by
  rw [val_main_call0_v5_apply, v3_at, c4_at, Ideal.subf_def]

theorem c6_at (p : Fin 1024) (j : Fin 50257) :
    val_main_call0_v6 (F := Ideal) x0 x1 x2 (ix2 p j) = Ideal.exp (sRow x0 x1 x2 p j - rowMax (sRow x0 x1 x2 p)) := by
  rw [val_main_call0_v6_apply, c5_at, Ideal.hostUnary_exp_def]

/-- Summed over the columns from `0`: the sum of the exponentials of the shifted row. -/
theorem c7_at (p : Fin 1024) : val_main_call0_v7 (F := Ideal) x0 x1 x2 (ix1 p) = sumExp (sRow x0 x1 x2 p) := by
  rw [val_main_call0_v7_apply, val_main_call0_cst_1_apply, Ideal.ofBits_def, Ideal.ofBits_zero_f32, zero_add]
  exact Finset.sum_congr rfl fun k _ => by rw [idx_c7, c6_at]

/-- Its logarithm, broadcast along the row. -/
theorem c10_at (p : Fin 1024) (j : Fin 50257) :
    val_main_call0_v10 (F := Ideal) x0 x1 x2 (ix2 p j) = Ideal.log (sumExp (sRow x0 x1 x2 p)) := by
  rw [val_main_call0_v10_apply, val_main_call0_v9_apply, val_main_call0_v8_apply, idx_c8c10, c7_at, Ideal.hostUnary_log_def]

/-! ## The result -/

/-- The reference's result at `(p, j)`: the log-softmax of the scores of row `p`, subtracted in turn. -/
theorem v4_at (p : Fin 1024) (j : Fin 50257) :
    val_main_v4 (F := Ideal) x0 x1 x2 (ix2 p j) = logSoftmaxInTurn (sRow x0 x1 x2 p) j := by
  rw [val_main_v4_apply, c5_at, c10_at, Ideal.subf_def]
  rfl

/-- The claim's function at `(p, j)`: the log-softmax of the same scores, subtracted together. -/
theorem result_at (p : Fin 1024) (j : Fin 50257) :
    Cert.LogSoftmaxScores.result x0 x1 x2 (ix2 p j) = logSoftmaxJoint (sRow x0 x1 x2 p) j := by
  unfold Cert.LogSoftmaxScores.result
  rw [normalized_apply (embedded x0 x1) x1 x2 (ix2 p j) p j rfl rfl]
  exact congrArg (fun h => logSoftmaxJoint (scoreRow h x1 x2) j) (funext fun l => embedded_apply x0 x1 (ix2 p l) p l rfl rfl)

/-- THE REFERENCE IS THE CLAIM'S FUNCTION on arrays whose every row of scores has a maximum that is neither infinity. -/
theorem reference_eq (x0 : (⟨S1024x50257, .f32⟩ : BufTy).Contents (Elt Ideal)) (x1 : (⟨S50257x128, .f32⟩ : BufTy).Contents (Elt Ideal)) (x2 : (⟨S128x128, .f32⟩ : BufTy).Contents (Elt Ideal))
    (hb : ∀ p : Fin 1024, Cert.LogSoftmaxScores.rowMax (Cert.LogSoftmaxScores.scoreRow (Cert.LogSoftmaxScores.embedRow (fun v => x0 (ix2 p v)) x1) x1 x2) ≠ ⊥)
    (ht : ∀ p : Fin 1024, Cert.LogSoftmaxScores.rowMax (Cert.LogSoftmaxScores.scoreRow (Cert.LogSoftmaxScores.embedRow (fun v => x0 (ix2 p v)) x1) x1 x2) ≠ ⊤) :
    Cert.ReferenceIdeal.ReadP.val_main_v4 (F := Ideal) x0 x1 x2 = Cert.LogSoftmaxScores.result x0 x1 x2 := by
  funext i
  obtain ⟨p, j, rfl⟩ : ∃ (p : Fin 1024) (j : Fin 50257), i = ix2 p j := ⟨i 0, i 1, eq_ix2 i⟩
  rw [v4_at, result_at]
  exact (logSoftmaxJoint_eq_inTurn _ (hb p) (ht p) j).symm

end Cert.ReferenceIdeal.RefValue

end
-- ==== Proof.LibFiniteReals.lean ====
/-
  A general lemma file: extended reals that are real numbers, and the mean and variance of finitely many of them.

  Over the extended reals sums and products have corners at the infinities, and laws such as distributivity hold only
  away from them. This file keeps track of the entries that ARE real numbers: they are closed under the arithmetic
  operations, finite sums, maxima, quotients by a nonzero real and the reciprocal square root of a positive real, and
  on them every identity of real arithmetic may be used. The identity needed for a batch normalisation is the two ways
  of writing a variance: for `n` real numbers with mean `μ`, the mean of the squared deviations `(y − μ)²` is the mean
  of the squares minus `μ²`.
-/
import Idealize.ShloMosaic.PureOps.Ideal

noncomputable section

namespace Cert.FiniteReals

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.max {x y : EReal} (hx : IsReal x) (hy : IsReal y) : IsReal (max x y) := by
  rcases max_cases x y with ⟨h, _⟩ | ⟨h, _⟩ <;> rw [h] <;> assumption

/-- A finite sum of reals, taken in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real by a nonzero real, in the extended reals' division, is the real quotient. -/
theorem div_coe_coe (x : ℝ) {y : ℝ} (hy : y ≠ 0) : Ideal.div (x : EReal) (y : EReal) = ((x / y : ℝ) : EReal) := by
  rw [Ideal.div_coe hy, ← EReal.coe_mul]
  congr 1
  field_simp

theorem IsReal.div_coe {x : EReal} (hx : IsReal x) {y : ℝ} (hy : y ≠ 0) : IsReal (Ideal.div x (y : EReal)) := by
  obtain ⟨r, rfl⟩ := hx; exact ⟨r / y, div_coe_coe r hy⟩

/-- The reciprocal square root of a positive real is a positive real. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_of_pos {r : ℝ} (h : 0 < r) : IsReal (Ideal.rsqrt (r : EReal)) :=
  ⟨_, rsqrt_coe_pos h⟩

/-! ## Mean and variance of `n` reals -/

/-- For `n` real numbers with sum `S`: the mean of the squared deviations from `S / n` is the mean of the squares minus
    the square of the mean. -/
theorem real_variance (n : ℕ) (hn : (n : ℝ) ≠ 0) (y : Fin n → ℝ) :
    (∑ a, (y a - (∑ a, y a) / n) * (y a - (∑ a, y a) / n)) / n
      = (∑ a, y a * y a) / n - ((∑ a, y a) / n) * ((∑ a, y a) / n) := by
  set S := ∑ a, y a with hS
  have h1 : ∑ a, (y a - S / n) * (y a - S / n) = (∑ a, y a * y a) - 2 * (S / n) * S + n * ((S / n) * (S / n)) := by
    have : ∀ a, (y a - S / n) * (y a - S / n) = y a * y a - 2 * (S / n) * y a + (S / n) * (S / n) := fun a => by ring
    simp only [this, Finset.sum_add_distrib, Finset.sum_sub_distrib, ← Finset.mul_sum, Finset.sum_const, Finset.card_univ,
      Fintype.card_fin, nsmul_eq_mul, ← hS]
    ring
  rw [h1]
  field_simp
  ring

/-- The mean of the squared deviations of real numbers is a nonnegative real. -/
theorem real_variance_nonneg (n : ℕ) (μ : ℝ) (y : Fin n → ℝ) : 0 ≤ (∑ a, (y a - μ) * (y a - μ)) / n :=
  div_nonneg (Finset.sum_nonneg fun a _ => mul_self_nonneg _) (Nat.cast_nonneg n)

variable {n : ℕ}

/-- THE MEAN of `n` real entries, computed in the extended reals: the real mean. -/
theorem mean_coe (hn : (n : ℝ) ≠ 0) (y : Fin n → ℝ) :
    Ideal.div (∑ a, ((y a : ℝ) : EReal)) ((n : ℝ) : EReal) = (((∑ a, y a) / n : ℝ) : EReal) := by
  rw [coe_sum, div_coe_coe _ hn]

/-- THE TWO VARIANCES AGREE on real entries: the mean of `(Y − μ)²` (`μ` the mean) is the mean of `Y²` minus `μ²`, all
    computed in the extended reals with the quotient by `n`. -/
theorem variance_eq (hn : (n : ℝ) ≠ 0) (Y : Fin n → EReal) (hY : ∀ a, IsReal (Y a)) :
    Ideal.div (∑ a, (Y a - Ideal.div (∑ a, Y a) ((n : ℝ) : EReal)) * (Y a - Ideal.div (∑ a, Y a) ((n : ℝ) : EReal))) ((n : ℝ) : EReal)
      = Ideal.div (∑ a, Y a * Y a) ((n : ℝ) : EReal)
        - Ideal.div (∑ a, Y a) ((n : ℝ) : EReal) * Ideal.div (∑ a, Y a) ((n : ℝ) : EReal) := by
  choose y hy using hY
  obtain rfl : Y = fun a => ((y a : ℝ) : EReal) := funext hy
  simp only [mean_coe hn, ← EReal.coe_sub, ← EReal.coe_mul, coe_sum, div_coe_coe _ hn]
  exact congrArg _ (real_variance n hn y)

/-- On real entries the mean is real, -/
theorem isReal_mean (hn : (n : ℝ) ≠ 0) (Y : Fin n → EReal) (hY : ∀ a, IsReal (Y a)) :
    IsReal (Ideal.div (∑ a, Y a) ((n : ℝ) : EReal)) :=
  (IsReal.sum _ _ fun a _ => hY a).div_coe hn

/-- and the variance is a nonnegative real. -/
theorem variance_nonneg (hn : (n : ℝ) ≠ 0) (Y : Fin n → EReal) (hY : ∀ a, IsReal (Y a)) (μ : EReal) (hμ : IsReal μ) :
    ∃ v : ℝ, 0 ≤ v ∧ Ideal.div (∑ a, (Y a - μ) * (Y a - μ)) ((n : ℝ) : EReal) = (v : EReal) := by
  choose y hy using hY
  obtain rfl : Y = fun a => ((y a : ℝ) : EReal) := funext hy
  obtain ⟨m, rfl⟩ := hμ
  refine ⟨(∑ a, (y a - m) * (y a - m)) / n, real_variance_nonneg n m y, ?_⟩
  simp only [← EReal.coe_sub, ← EReal.coe_mul, coe_sum, div_coe_coe _ hn]

end Cert.FiniteReals

end
-- ==== Proof.Finite.lean ====
/-
  Real inputs give real scores, and a row of real scores has a real maximum.

  The three arrays of the claim are assumed finite: every entry has absolute value below `+∞`. Over the extended
  reals that says exactly that every entry is a real number (`isReal_of_abs_lt_top`: of the three kinds of extended
  real, `⊥` and `⊤` both have absolute value `⊤`). Real numbers are closed under products and finite sums, so every
  embedded row, every metric row and every score is a real number. The maximum of a row is folded from `−∞` over
  50257 entries: it lies below `⊤` because `−∞` and every entry do, and above `⊥` because the first entry does. So the
  row maximum is neither infinity, which is what joining the two spellings of the log-softmax needs.
-/
import proofs.«111833_j40097814675558_2_alg».proof.Proof.Spec
import proofs.«111833_j40097814675558_2_alg».proof.Proof.LibFiniteReals
import proofs.«111833_j40097814675558_2_alg».proof.Pre_finite_inputs
import Idealize.ShloMosaic.Lib.ReduceAll

noncomputable section

open scoped BigOperators

namespace Cert.LogSoftmaxScores

open Cert.FiniteReals Idealize.ShloMosaic Idealize.ShloMosaic.ValueIdx

/-! ## Sums of products of reals -/

/-- An embedded row of real entries against a real table is real: a finite sum of products of reals. -/
theorem isReal_embedRow (x : Fin 50257 → EReal) (E : EmbTable) (hx : ∀ v, IsReal (x v)) (hE : ∀ i, IsReal (E i))
    (l : Fin 128) : IsReal (embedRow x E l) := by
  unfold embedRow
  exact IsReal.sum _ _ fun v _ => (hx v).mul (hE _)

/-- A metric row of real entries against a real metric is real. -/
theorem isReal_metricRow (h : Fin 128 → EReal) (M : Metric) (hh : ∀ l, IsReal (h l)) (hM : ∀ i, IsReal (M i))
    (k : Fin 128) : IsReal (metricRow h M k) := by
  unfold metricRow
  exact IsReal.sum _ _ fun l _ => (hh l).mul (hM _)

/-- A score is real: a finite sum of products of a real metric row with real table entries. -/
theorem isReal_scoreRow (h : Fin 128 → EReal) (E : EmbTable) (M : Metric) (hh : ∀ l, IsReal (h l))
    (hE : ∀ i, IsReal (E i)) (hM : ∀ i, IsReal (M i)) (j : Fin 50257) : IsReal (scoreRow h E M j) := by
  unfold scoreRow
  exact IsReal.sum _ _ fun k _ => (isReal_metricRow h M hh hM k).mul (hE _)

/-! ## The row maximum -/

/-- The pattern a maximum is folded from denotes `⊥`. -/
theorem negInf_eq_bot : negInf = ⊥ := by
  show Ideal.ofBits .f32 0xFF800000#32 = ⊥
  simp [Ideal.ofBits, Ideal.ieee]

/-- The maximum of a row of reals is above `⊥`: its first entry is. -/
theorem rowMax_ne_bot (s : Fin 50257 → EReal) (hs : ∀ j, IsReal (s j)) : rowMax s ≠ ⊥ := by
  refine bot_lt_iff_ne_bot.1 ?_
  unfold rowMax
  refine (Finset.lt_fold_max (c := ⊥)).2 (Or.inr ⟨⟨0, by norm_num⟩, Finset.mem_univ _, ?_⟩)
  obtain ⟨r, hr⟩ := hs ⟨0, by norm_num⟩
  rw [hr]
  exact EReal.bot_lt_coe r

/-- The maximum of a row of reals is below `⊤`: the starting value and every entry are. -/
theorem rowMax_ne_top (s : Fin 50257 → EReal) (hs : ∀ j, IsReal (s j)) : rowMax s ≠ ⊤ := by
  refine lt_top_iff_ne_top.1 ?_
  unfold rowMax
  refine (Finset.fold_max_lt (c := ⊤)).2 ⟨?_, fun j _ => ?_⟩
  · rw [negInf_eq_bot]
    exact bot_lt_top
  · obtain ⟨r, hr⟩ := hs j
    rw [hr]
    exact EReal.coe_lt_top r

/-! ## The precondition read back -/

/-- The pattern the inputs are compared against denotes `⊤`. -/
theorem posInf_eq_top : Ideal.ofBits .f32 0x7F800000#32 = ⊤ := by
  simp [Ideal.ofBits, Ideal.ieee]

/-- An extended real whose absolute value `max x (−x)` is below `⊤` is a real number. -/
theorem isReal_of_abs_lt_top (x : EReal) (h : max x (-x) < ⊤) : IsReal x := by
  induction x using EReal.rec with
  | bot => simp at h
  | coe r => exact ⟨r, rfl⟩
  | top => simp at h

/-- The comparison one entry of the precondition makes, read back: it is 1 only on a real number. -/
theorem isReal_of_cmp (x : EReal)
    (h : Ideal.cmp .olt (max x (-x)) (Ideal.ofBits .f32 0x7F800000#32) = 1#1) : IsReal x := by
  rw [posInf_eq_top] at h
  refine isReal_of_abs_lt_top x ?_
  unfold Ideal.cmp at h
  by_contra hn
  simp [hn] at h

/-- The rank-0 shape has one index. -/
instance : Subsingleton Cert.Pre_finite_inputs.S_.Idx := ⟨fun a b => funext fun d => d.elim0⟩

/-- One array of the precondition: if `|a| < +∞` holds at every index (the conjunction over all indices is 1), every
    entry of `a` is a real number. -/
theorem all_real_of_reduce {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ix0 = 1#1) (i : s.Idx) : IsReal (a i) :=
  isReal_of_cmp (a i) (Host.reduce_andi_all _ _ hr hu ix0 e i)

/-- THE PRECONDITION DECODED: every entry of each of the three arrays is a real number. -/
theorem inputs_real [Cert.Pre_finite_inputs.Facts]
    (a0 : FVec Ideal Cert.Pre_finite_inputs.S1024x50257 .f32) (a1 : FVec Ideal Cert.Pre_finite_inputs.S50257x128 .f32)
    (a2 : FVec Ideal Cert.Pre_finite_inputs.S128x128 .f32)
    (h : Cert.Pre_finite_inputs.fn (F := Ideal) a0 a1 a2 = fun _ => 1#1) :
    (∀ i, IsReal (a0 i)) ∧ (∀ i, IsReal (a1 i)) ∧ (∀ i, IsReal (a2 i)) := by
  have e := congrFun h ix0
  dsimp only [Cert.Pre_finite_inputs.fn, andi] at e
  rw [IntOp.andi_eq_one, IntOp.andi_eq_one] at e
  obtain ⟨⟨e0, e1⟩, e2⟩ := e
  exact ⟨all_real_of_reduce _ _ _ a0 e0, all_real_of_reduce _ _ _ a1 e1, all_real_of_reduce _ _ _ a2 e2⟩

end Cert.LogSoftmaxScores

end
-- ==== Proof.lean ====
/-
  The claim: a log-softmax scoring kernel against its reference, over the extended reals.

  Both programs take a batch `xs : [1024, 50257]`, an embedding table `E : [50257, 128]` and a metric `M : [128, 128]`,
  form the scores `s = ((xs · E) · M) · Eᵀ` and normalise each row of `s` by the logarithm of its softmax. The kernel does
  it in two passes over blocks of rows: the first writes `xs · E`; the second forms a block of scores and overwrites it
  with `s − (m + ℓ)`, where `m` is the row's maximum and `ℓ = log ∑ exp (s − m)`. The reference computes the same three
  products on whole arrays (the last against the transposed table) and subtracts in turn, `(s − m) − ℓ`.

  Every product is the same sum over the same contracted coordinate on both sides, every maximum the same fold from
  `−∞`, so the two results differ only in the last step's bracketing; and `a − (m + ℓ) = (a − m) − ℓ` over the extended
  reals as soon as `m` is a real number. That is where the precondition is used: with finite inputs every score is a
  finite sum of products of reals, hence real, and the maximum of a nonempty row of reals is real.

  The kernel's run with the result array named is `Whole.run`, the reference's run `ValueP.run`, read back stage by
  stage. The idealized kernel is the kernel's own text read over the extended reals, so nothing is owed for `preserves`.
-/
import proofs.«111833_j40097814675558_2_alg».proof.Defs
import proofs.«111833_j40097814675558_2_alg».proof.Proof.Gen.Kernel
import proofs.«111833_j40097814675558_2_alg».proof.Proof.Gen.Kernel.Frame
import proofs.«111833_j40097814675558_2_alg».proof.Proof.Gen.KernelIdeal
import proofs.«111833_j40097814675558_2_alg».proof.Proof.Gen.KernelIdeal.Frame
import proofs.«111833_j40097814675558_2_alg».proof.Proof.Gen.ReferenceIdeal
import proofs.«111833_j40097814675558_2_alg».proof.Proof.Gen.Pre_finite_inputs
import proofs.«111833_j40097814675558_2_alg».proof.Proof.KernelRun
import proofs.«111833_j40097814675558_2_alg».proof.Proof.RefRun
import proofs.«111833_j40097814675558_2_alg».proof.Proof.RefValue
import proofs.«111833_j40097814675558_2_alg».proof.Proof.Finite
import Idealize.ShloMosaic.Adequacy
import Idealize.ShloMosaic.Init

noncomputable section

namespace Cert.Proof

open Idealize.ShloMosaic Idealize.SL.Sem Idealize.ShloMosaic.ValueIdx
open Cert.LogSoftmaxScores Cert.FiniteReals

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- With real inputs the maximum of every row of scores is a real number. -/
theorem rowMax_real (xs : (⟨2, ![1024, 50257]⟩ : Shape).Idx → EReal) (E : EmbTable) (M : Metric)
    (hx : ∀ i, IsReal (xs i)) (hE : ∀ i, IsReal (E i)) (hM : ∀ i, IsReal (M i)) (p : Fin 1024) :
    rowMax (scoreRow (embedRow (fun v => xs (ix2 p v)) E) E M) ≠ ⊥
      ∧ rowMax (scoreRow (embedRow (fun v => xs (ix2 p v)) E) E M) ≠ ⊤ :=
  have hs : ∀ j, IsReal (scoreRow (embedRow (fun v => xs (ix2 p v)) E) E M j) := fun j =>
    isReal_scoreRow _ E M (fun l => isReal_embedRow _ E (fun v => hx _) hE l) hE hM j
  ⟨rowMax_ne_bot _ hs, rowMax_ne_top _ hs⟩

/-- From memories agreeing on the three arguments, both idealized programs end with the same result array: the kernel's
    is the whole computation with the joint subtraction, the reference's the same with the subtractions in turn, and the
    two agree because every row maximum is real. -/
theorem algebraic : Cert.algebraic_KernelIdeal_ReferenceIdeal := by
  intro m ρ m' ρ' hpre hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2]
  obtain ⟨r0, r1, r2⟩ := inputs_real _ _ _ (hpre c)
  exact Cert.ReferenceIdeal.RefValue.reference_eq _ _ _
    (fun p => (rowMax_real _ _ _ r0 r1 r2 p).1) (fun p => (rowMax_real _ _ _ r0 r1 r2 p).2)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
